-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S256x512 : Shape := ⟨2, ![256, 512]⟩
abbrev S256 : Shape := ⟨1, ![256]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_arg5 : FVec F S256x512 .f32) (main_arg6 : FVec F S256 .f32) (main_v13 : IVec S_ 1) (main_v16 : IVec S256x512 1) : IVec S_ 1 :=
  let main_c_5 : IVec S_ 1 := constantI S_ 1 1#1
  let main_v17 : IVec S_ 1 := (fun x v => Host.reduce IntOp.andi x v reducesTo_S256x512_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x512 .f32 := Host.absf main_arg5
  let main_cst_8 : FVec F S_ .f32 := constant S_ .f32 0x7F800000#32
  let main_v25 : FVec F S256x512 .f32 := broadcastInDim S256x512 ![] bcast_S_S256x512 main_cst_8
  let main_v26 : IVec S256x512 1 := cmpf .olt main_v24 main_v25
  let main_c_9 : IVec S_ 1 := constantI S_ 1 1#1
  let main_v27 : IVec S_ 1 := (fun x v => Host.reduce IntOp.andi x v reducesTo_S256x512_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S8192x512 .f32) (main_arg1 : FVec F S256x512 .f32) (main_arg2 : FVec F S256 .f32) (main_arg3 : FVec F S256x512 .f32) (main_arg4 : FVec F S256 .f32) (main_arg5 : FVec F S256x512 .f32) (main_arg6 : FVec F S256 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x512 .f32 := Host.absf main_arg3
  let main_cst_4 : FVec F S_ .f32 := constant S_ .f32 0x7F800000#32
  let main_v15 : FVec F S256x512 .f32 := broadcastInDim S256x512 ![] bcast_S_S256x512 main_cst_4
  let main_v16 : IVec S256x512 1 := cmpf .olt main_v14 main_v15
  fn_part1 (F := F) main_arg4 main_arg5 main_arg6 main_v13 main_v16
-- ==== Kernel.lean ====
abbrev S8192x512 : Shape := ⟨2, ![8192, 512]⟩
abbrev S256x512 : Shape := ⟨2, ![256, 512]⟩
abbrev S256 : Shape := ⟨1, ![256]⟩
abbrev S512x256 : Shape := ⟨2, ![512, 256]⟩
abbrev S1x256 : Shape := ⟨2, ![1, 256]⟩
abbrev S8192x256 : Shape := ⟨2, ![8192, 256]⟩
abbrev S1024x512 : Shape := ⟨2, ![1024, 512]⟩
abbrev S1024x256 : Shape := ⟨2, ![1024, 256]⟩
abbrev S8192x1 : Shape := ⟨2, ![8192, 1]⟩
abbrev S128x256 : Shape := ⟨2, ![128, 256]⟩
abbrev S128x1 : Shape := ⟨2, ![128, 1]⟩
abbrev S128x8192 : Shape := ⟨2, ![128, 8192]⟩
abbrev S128 : Shape := ⟨1, ![128]⟩
abbrev S_ : Shape := ⟨0, ![]⟩

abbrev nBuf : Space → Nat
  | .hbm => 22
  | .vmem => 22
  | .smem => 0
  | _ => 0

abbrev bufTy : (tb : Table) → Fin (tcTables nBuf tb) → BufTy
  | .hbm, ⟨0, _⟩ => ⟨S8192x512, .f32⟩
  | .hbm, ⟨1, _⟩ => ⟨S256x512, .f32⟩
  | .hbm, ⟨2, _⟩ => ⟨S256, .f32⟩
  | .hbm, ⟨3, _⟩ => ⟨S256x512, .f32⟩
  | .hbm, ⟨4, _⟩ => ⟨S256, .f32⟩
  | .hbm, ⟨5, _⟩ => ⟨S256x512, .f32⟩
  | .hbm, ⟨6, _⟩ => ⟨S256, .f32⟩
  | .hbm, ⟨7, _⟩ => ⟨S512x256, .f32⟩
  | .hbm, ⟨8, _⟩ => ⟨S512x256, .f32⟩
  | .hbm, ⟨9, _⟩ => ⟨S512x256, .f32⟩
  | .hbm, ⟨10, _⟩ => ⟨S1x256, .f32⟩
  | .hbm, ⟨11, _⟩ => ⟨S1x256, .f32⟩
  | .hbm, ⟨12, _⟩ => ⟨S1x256, .f32⟩
  | .hbm, ⟨13, _⟩ => ⟨S8192x256, .bf16⟩
  | .hbm, ⟨14, _⟩ => ⟨S8192x256, .bf16⟩
  | .hbm, ⟨15, _⟩ => ⟨S8192x256, .bf16⟩
  | .hbm, ⟨16, _⟩ => ⟨S8192x256, .f32⟩
  | .hbm, ⟨17, _⟩ => ⟨S8192x1, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .local _ .vmem, ⟨0, _⟩ => ⟨S1024x512, .f32⟩
  | .local _ .vmem, ⟨1, _⟩ => ⟨S1024x512, .f32⟩
  | .local _ .vmem, ⟨2, _⟩ => ⟨S512x256, .f32⟩
  | .local _ .vmem, ⟨3, _⟩ => ⟨S1x256, .f32⟩
  | .local _ .vmem, ⟨4, _⟩ => ⟨S512x256, .f32⟩
  | .local _ .vmem, ⟨5, _⟩ => ⟨S1x256, .f32⟩
  | .local _ .vmem, ⟨6, _⟩ => ⟨S512x256, .f32⟩
  | .local _ .vmem, ⟨7, _⟩ => ⟨S1x256, .f32⟩
  | .local _ .vmem, ⟨8, _⟩ => ⟨S1024x256, .bf16⟩
  | .local _ .vmem, ⟨9, _⟩ => ⟨S1024x256, .bf16⟩
  | .local _ .vmem, ⟨10, _⟩ => ⟨S1024x256, .bf16⟩
  | .local _ .vmem, ⟨11, _⟩ => ⟨S1024x256, .bf16⟩
  | .local _ .vmem, ⟨12, _⟩ => ⟨S1024x256, .bf16⟩
  | .local _ .vmem, ⟨13, _⟩ => ⟨S1024x256, .bf16⟩
  | .local _ .vmem, ⟨14, _⟩ => ⟨S128x256, .bf16⟩
  | .local _ .vmem, ⟨15, _⟩ => ⟨S128x256, .bf16⟩
  | .local _ .vmem, ⟨16, _⟩ => ⟨S8192x256, .bf16⟩
  | .local _ .vmem, ⟨17, _⟩ => ⟨S8192x256, .bf16⟩
  | .local _ .vmem, ⟨18, _⟩ => ⟨S128x256, .f32⟩
  | .local _ .vmem, ⟨19, _⟩ => ⟨S128x256, .f32⟩
  | .local _ .vmem, ⟨20, _⟩ => ⟨S128x1, .f32⟩
  | .local _ .vmem, ⟨21, _⟩ => ⟨S128x1, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v7_0 : Ref sig .tc := ⟨.hbm, 16, rfl⟩
abbrev main_v7_1 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem3_1 : DmaSem sig := 19
abbrev cc1_sem4_0 : DmaSem sig := 20
abbrev cc1_sem4_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S8192x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S128x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S128x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  transposes_S256x512_S512x256_1_0 : S256x512.Transposes [1, 0] S512x256
  shapeCasts_S256_S1x256 : S256.ShapeCasts S1x256
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  packedbf16_S1024x256_S1024x256_0_0 : (Rect.unit (s := S1024x256) ![0, 0] S1024x256.size inb_S1024x256_S1024x256_0_0).PackedRows (EltTy.packing .bf16)
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S8192x256_S8192x256_0_0 : ∀ a, (![0, 0] : Fin 2 → Nat) a + S8192x256.size a ≤ S8192x256.size a
  h_S8192x256 : 0 < S8192x256.numel
  shapeCasts_S8192x256_S8192x256 : S8192x256.ShapeCasts S8192x256
  reduces_S128x8192_S128 : S128x8192.Reduces [1] S128
  shapeCasts_S128_S128x1 : S128.ShapeCasts S128x1
  broadcasts_S128x1_S128x8192 : S128x1.Broadcasts S128x8192
  broadcasts_S128x1_S128x256 : S128x1.Broadcasts S128x256
  inb_S128x1_S128x1_0_0 : ∀ a, (![0, 0] : Fin 2 → Nat) a + S128x1.size a ≤ S128x1.size a
  h_S128x1 : 0 < S128x1.numel
  reducesTo_S8192x1_S_d0_1 : S8192x1.ReducesTo [0, 1] S_
  h_S_ : 0 < S_.numel
  dot_S1024x512_S512x256_S1024x256_1_0_0_1_n_n_wf : DotDims.WF S1024x512 S512x256 S1024x256 [1] [0] [0] [1] [] []
  dot_S128x256_S8192x256_S128x8192_1_1_0_0_n_n_wf : DotDims.WF S128x256 S8192x256 S128x8192 [1] [1] [0] [0] [] []
  dot_S128x8192_S8192x256_S128x256_1_0_0_1_n_n_wf : DotDims.WF S128x8192 S8192x256 S128x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .f32 = 32 ∨ (Rect.block (s := S512x256) S512x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S512x256.size a
  hwx0_5 : ∀ i : grid0.Coords, EltTy.bits .f32 = 32 ∨ (Rect.block (s := S512x256) S512x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x256.size a ≤ S8192x256.size a
  hwx0_7 : ∀ i : grid0.Coords, EltTy.bits .bf16 = 32 ∨ (Rect.block (s := S8192x256) S1024x256.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x256.size a ≤ S8192x256.size a
  hwx0_8 : ∀ i : grid0.Coords, EltTy.bits .bf16 = 32 ∨ (Rect.block (s := S8192x256) S1024x256.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x256.size a ≤ S8192x256.size a
  hwx0_9 : ∀ i : grid0.Coords, EltTy.bits .bf16 = 32 ∨ (Rect.block (s := S8192x256) S1024x256.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x256.size a ≤ S8192x256.size a
  hwx1_0 : ∀ i : grid1.Coords, EltTy.bits .bf16 = 32 ∨ (Rect.block (s := S8192x256) S128x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x256.size a ≤ S8192x256.size a
  hwx1_1 : ∀ i : grid1.Coords, EltTy.bits .bf16 = 32 ∨ (Rect.block (s := S8192x256) S8192x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8192x256.size a ≤ S8192x256.size a
  hwx1_2 : ∀ i : grid1.Coords, EltTy.bits .bf16 = 32 ∨ (Rect.block (s := S8192x256) S8192x256.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x256.size a ≤ S8192x256.size a
  hwx1_3 : ∀ i : grid1.Coords, EltTy.bits .f32 = 32 ∨ (Rect.block (s := S8192x256) S128x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S128x1.size a ≤ S8192x1.size a
  hwx1_4 : ∀ i : grid1.Coords, EltTy.bits .f32 = 32 ∨ (Rect.block (s := S8192x1) S128x1.size (cc1_transform_4 i) (hinb1_4 i)).WholeWords (EltTy.packing .f32)

variable [Facts₀]

def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S128x256_S8192x256_S128x8192_1_1_0_0_n_n : DotDims S128x256 S8192x256 S128x8192 where
  lhsContracting := [1]
  rhsContracting := [1]
  lhsNonContracting := [0]
  rhsNonContracting := [0]
  lhsBatch := []
  rhsBatch := []
  wf := dot_S128x256_S8192x256_S128x8192_1_1_0_0_n_n_wf
def dot_S128x8192_S8192x256_S128x256_1_0_0_1_n_n : DotDims S128x8192 S8192x256 S128x256 where
  lhsContracting := [1]
  rhsContracting := [0]
  lhsNonContracting := [0]
  rhsNonContracting := [1]
  lhsBatch := []
  rhsBatch := []
  wf := dot_S128x8192_S8192x256_S128x256_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S512x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6_0) S1024x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v6_1) S1024x256.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v6_2) S1024x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v6_0) S128x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6_1) S8192x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6_2) S8192x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7_0) S128x256.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v7_1) S128x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S8192x512 : Shape := ⟨2, ![8192, 512]⟩
abbrev S256x512 : Shape := ⟨2, ![256, 512]⟩
abbrev S256 : Shape := ⟨1, ![256]⟩
abbrev S512x256 : Shape := ⟨2, ![512, 256]⟩
abbrev S8192x256 : Shape := ⟨2, ![8192, 256]⟩
abbrev S1x256 : Shape := ⟨2, ![1, 256]⟩
abbrev S_ : Shape := ⟨0, ![]⟩
abbrev S256x8192 : Shape := ⟨2, ![256, 8192]⟩
abbrev S8192x8192 : Shape := ⟨2, ![8192, 8192]⟩
abbrev S8192 : Shape := ⟨1, ![8192]⟩
abbrev S8192x1 : Shape := ⟨2, ![8192, 1]⟩

abbrev nBuf : Space → Nat
  | .hbm => 71
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S256x512, .f32⟩
  | .hbm, ⟨2, _⟩ => ⟨S256, .f32⟩
  | .hbm, ⟨3, _⟩ => ⟨S256x512, .f32⟩
  | .hbm, ⟨4, _⟩ => ⟨S256, .f32⟩
  | .hbm, ⟨5, _⟩ => ⟨S256x512, .f32⟩
  | .hbm, ⟨6, _⟩ => ⟨S256, .f32⟩
  | .hbm, ⟨7, _⟩ => ⟨S512x256, .f32⟩
  | .hbm, ⟨8, _⟩ => ⟨S8192x256, .f32⟩
  | .hbm, ⟨9, _⟩ => ⟨S1x256, .f32⟩
  | .hbm, ⟨10, _⟩ => ⟨S8192x256, .f32⟩
  | .hbm, ⟨11, _⟩ => ⟨S8192x256, .f32⟩
  | .hbm, ⟨12, _⟩ => ⟨S512x256, .f32⟩
  | .hbm, ⟨13, _⟩ => ⟨S8192x256, .f32⟩
  | .hbm, ⟨14, _⟩ => ⟨S1x256, .f32⟩
  | .hbm, ⟨15, _⟩ => ⟨S8192x256, .f32⟩
  | .hbm, ⟨16, _⟩ => ⟨S8192x256, .f32⟩
  | .hbm, ⟨17, _⟩ => ⟨S512x256, .f32⟩
  | .hbm, ⟨18, _⟩ => ⟨S8192x256, .f32⟩
  | .hbm, ⟨19, _⟩ => ⟨S1x256, .f32⟩
  | .hbm, ⟨20, _⟩ => ⟨S8192x256, .f32⟩
  | .hbm, ⟨21, _⟩ => ⟨S8192x256, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S256x8192, .f32⟩
  | .hbm, ⟨27, _⟩ => ⟨S8192x8192, .f32⟩
  | .hbm, ⟨28, _⟩ => ⟨S8192x8192, .f32⟩
  | .hbm, ⟨29, _⟩ => ⟨S8192x8192, .f32⟩
  | .hbm, ⟨30, _⟩ => ⟨S_, .f32⟩
  | .hbm, ⟨31, _⟩ => ⟨S8192, .f32⟩
  | .hbm, ⟨32, _⟩ => ⟨S_, .f32⟩
  | .hbm, ⟨33, _⟩ => ⟨S8192, .f32⟩
  | .hbm, ⟨34, _⟩ => ⟨S8192, .f32⟩
  | .hbm, ⟨35, _⟩ => ⟨S8192x1, .f32⟩
  | .hbm, ⟨36, _⟩ => ⟨S8192x8192, .f32⟩
  | .hbm, ⟨37, _⟩ => ⟨S8192x8192, .f32⟩
  | .hbm, ⟨38, _⟩ => ⟨S8192x8192, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S8192x8192, .f32⟩
  | .hbm, ⟨43, _⟩ => ⟨S8192x8192, .f32⟩
  | .hbm, ⟨44, _⟩ => ⟨S_, .f32⟩
  | .hbm, ⟨45, _⟩ => ⟨S8192, .f32⟩
  | .hbm, ⟨46, _⟩ => ⟨S_, .f32⟩
  | .hbm, ⟨47, _⟩ => ⟨S8192, .f32⟩
  | .hbm, ⟨48, _⟩ => ⟨S8192, .f32⟩
  | .hbm, ⟨49, _⟩ => ⟨S8192x1, .f32⟩
  | .hbm, ⟨50, _⟩ => ⟨S8192x8192, .f32⟩
  | .hbm, ⟨51, _⟩ => ⟨S8192x8192, .f32⟩
  | .hbm, ⟨52, _⟩ => ⟨S8192x8192, .f32⟩
  | .hbm, ⟨53, _⟩ => ⟨S_, .f32⟩
  | .hbm, ⟨54, _⟩ => ⟨S8192, .f32⟩
  | .hbm, ⟨55, _⟩ => ⟨S8192x1, .f32⟩
  | .hbm, ⟨56, _⟩ => ⟨S8192x8192, .f32⟩
  | .hbm, ⟨57, _⟩ => ⟨S8192x8192, .f32⟩
  | .hbm, ⟨58, _⟩ => ⟨S_, .f32⟩
  | .hbm, ⟨59, _⟩ => ⟨S8192x8192, .f32⟩
  | .hbm, ⟨60, _⟩ => ⟨S8192x8192, .f32⟩
  | .hbm, ⟨61, _⟩ => ⟨S8192x8192, .f32⟩
  | .hbm, ⟨62, _⟩ => ⟨S8192x8192, .f32⟩
  | .hbm, ⟨63, _⟩ => ⟨S_, .f32⟩
  | .hbm, ⟨64, _⟩ => ⟨S8192, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S8192x256, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_8 : Ref sig .tc := ⟨.hbm, 63, rfl⟩
abbrev main_v47 : Ref sig .tc := ⟨.hbm, 64, rfl⟩
abbrev main_cst_9 : Ref sig .tc := ⟨.hbm, 65, rfl⟩
abbrev main_v48 : Ref sig .tc := ⟨.hbm, 66, rfl⟩
abbrev main_cst_10 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩

abbrev nD : Nat := 1
abbrev τ : Topo := Topo.v7x

variable {F : FTy → Type} [FloatOps F]

class Facts₀ : Prop where
  transposes_S256x512_S512x256_1_0 : S256x512.Transposes [1, 0] S512x256
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  transposes_S8192x256_S256x8192_1_0 : S8192x256.Transposes [1, 0] S256x8192
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  reducesTo_S8192_S_d0 : S8192.ReducesTo [0] S_
  dot_S8192x512_S512x256_S8192x256_1_0_0_1_n_n_wf : DotDims.WF S8192x512 S512x256 S8192x256 [1] [0] [0] [1] [] []
  dot_S8192x256_S256x8192_S8192x8192_1_0_0_1_n_n_wf : DotDims.WF S8192x256 S256x8192 S8192x8192 [1] [0] [0] [1] [] []
  dot_S8192x8192_S8192x256_S8192x256_1_0_0_1_n_n_wf : DotDims.WF S8192x8192 S8192x256 S8192x256 [1] [0] [0] [1] [] []

variable [Facts₀]

def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf

class Facts : Prop extends Facts₀ where

variable [Facts]
-- ==== Proof.KernelRun.lean ====
/-
  The idealized kernel's run with its two results named.

  @main is four segments: the host's transposes and reshapes, the projection kernel's region, the attention kernel's
  region, and the host's mean.  The generated frame proves that every weakly fair execution runs through them and ends
  with every TensorCore buffer at the contents `Gen.W4 m ρ c` — the fold of the four segments from the launch memory —
  and then keeps only what that says of the argument arrays.  Here the same run is read at the two result buffers as
  well: the attention output and the mean entropy end at `W4`'s contents, which the later modules compute.
-/
import proofs.«151166_j11244224381685_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the regions theorem's implicit arguments are found by unifying its conclusion with this one, which takes unfolding
-- plain definitions in a metavariable's type
set_option backward.isDefEq.respectTransparency.types false in
/-- Every weakly fair execution of @main terminates, nothing faulting, with the attention output and the mean entropy at
    the last boundary's contents and the argument arrays as launched. -/
theorem run_named : θ_run defs (onTc (τ := τ) (main (F := F))) ⟨m, fun _ => 0, ρ⟩ (fun r => ∀ c : Dev nD,
      r.2.mem ((c.tc : Thread nD τ).loc main_v7_0) = W4 m ρ c (Proc.devRef .tc main_v7_0)
      ∧ r.2.mem ((c.tc : Thread nD τ).loc main_v9) = W4 m ρ c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v7_0 (by decide)), h c _ (mem_uc main_v9 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.KernelIdeal.Named

end
-- ==== Proof.LibPlainDot.lean ====
/-
  A plain matrix product read at an index, over the extended reals.

  For the dimension numbers of an M×K by K×N product (contract the left operand's second axis with the
  right operand's first; no batch axes) the entry (i, j) of the product is the sum over k of
  lhs (i, k) · rhs (k, j): stated once for a `tpu.matmul` accumulating into the zero splat and once for
  the host's `dot_general`, for any extents M, K, N. The contraction index of such a product has one
  axis of extent K, and the sum over it is re-indexed by that coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable {M K N : Nat}

/-- The left operand's row coordinate is the result's row coordinate. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, show 0 < (DotDims.plain M K N).contr.rank from Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, show 0 < (DotDims.plain M K N).contr.rank from Nat.one_pos⟩).val :=
  (DotDims.plain M K N).rhsIdx_val_of_single rfl j q

/-- The right operand's column coordinate is the result's column coordinate. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction index of a plain product is the sum over k of lhs (i, k) · rhs (k, j). -/
theorem sum_contr (lhs : (⟨2, ![M, K]⟩ : Shape).Idx → EReal) (rhs : (⟨2, ![K, N]⟩ : Shape).Idx → EReal)
    (i : Fin M) (j : Fin N) :
    (∑ q : (DotDims.plain M K N).contr.Idx,
        lhs ((DotDims.plain M K N).lhsIdx (ix2 i j) q) * rhs ((DotDims.plain M K N).rhsIdx (ix2 i j) q))
      = ∑ k : Fin K, lhs (ix2 i k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

/-- A `tpu.matmul` of plain dimension numbers into the zero splat, at (i, j): the sum over k of the products. -/
theorem matmul_zero_apply {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) :=
  (Ideal.matmul_constant_zero_apply (DotDims.plain M K N) prec lhs rhs (ix2 i j)).trans (sum_contr lhs rhs i j)

/-- The host's `dot_general` of plain dimension numbers, at (i, j): the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (i : Fin M) (j : Fin N) :
    FloatOps.dotGeneral (DotDims.plain M K N) prec sched lhs rhs (ix2 i j)
      = ∑ k : Fin K, lhs (ix2 i k) * rhs (ix2 k j) :=
  (Ideal.dotGeneral_apply (DotDims.plain M K N) prec sched lhs rhs (ix2 i j)).trans (sum_contr lhs rhs i j)

end Idealize.ShloMosaic.PlainDot

end
-- ==== Proof.ProjPayload.lean ====
/-
  The projection kernel's stored values at an index.

  Each of its three stores holds `x · Wᵀ + b` for one of the three weight matrices: the entry at row `p`, column
  `q` of the stored block is the sum over `k` of `x (p, k) · wT (k, q)`, plus the bias row's entry `b (0, q)`.
  The changes of float format around the product are the identity on the extended reals.
-/
import proofs.«151166_j11244224381685_1_alg».proof.Proof.Gen.KernelIdeal.Skeleton
import proofs.«151166_j11244224381685_1_alg».proof.Proof.LibPlainDot
import Idealize.ShloMosaic.Lib.Pipeline.Value
import Idealize.ShloMosaic.Lib.ValueIdx
import Idealize.ShloMosaic.Lib.ValueLayout

noncomputable section

namespace Cert.KernelIdeal.Payload

open Cert.KernelIdeal Cert.KernelIdeal.Gen
open Idealize.ShloMosaic Idealize.ShloMosaic.ValueIdx

/-- The printed record of the projection's product is the plain 1024×512 · 512×256 one. -/
theorem dot_proj_eq : dot_S1024x512_S512x256_S1024x256_1_0_0_1_n_n = DotDims.plain 1024 512 256 := rfl

/-- One projected entry: the row of `x` against the column of `wT`, plus the bias. -/
theorem proj_apply (x : Vec Ideal S1024x512 .f32) (wT : Vec Ideal S512x256 .f32) (b : Vec Ideal S1x256 .f32)
    (p : Fin 1024) (q : Fin 256) :
    k0_pay2 x wT b (ix2 p q) = (∑ k : Fin 512, x (ix2 p k) * wT (ix2 k q)) + b (ix2 (0 : Fin 1) q) := by
  unfold k0_pay2 k0_pay1
  rw [truncf_apply, addf_apply, shapeCast_self, shapeCast_self, broadcastTo_1b_ab_apply, dot_proj_eq]
  exact congrArg (fun z => z + b (ix2 (0 : Fin 1) q))
    (PlainDot.matmul_zero_apply none (truncf .bf16 x bitsLt_bf16_f32) (truncf .bf16 wT bitsLt_bf16_f32) p q)

theorem pay3_eq : @k0_pay3 Ideal _ = @k0_pay2 Ideal _ := rfl
theorem pay4_eq : @k0_pay4 Ideal _ = @k0_pay2 Ideal _ := rfl

end Cert.KernelIdeal.Payload

end
-- ==== Proof.Projection.lean ====
/-
  The projection kernel's three output arrays as whole-array functions.

  The kernel runs over eight grid points; point `t` reads rows `1024·t … 1024·t + 1023` of `x`, the whole of one
  transposed weight matrix and its bias row, and writes the same rows of an output array.  So each output array ends
  holding, at `(i, a)`, the sum over `k` of `x (i, k) · wT (k, a)` plus `b (0, a)`: the blocks are restrictions of
  one function, and they tile the array.
-/
import proofs.«151166_j11244224381685_1_alg».proof.Proof.Gen.KernelIdeal.Frame
import proofs.«151166_j11244224381685_1_alg».proof.Proof.ProjPayload

set_option maxRecDepth 16384

noncomputable section

namespace Cert.KernelIdeal.Proj

open Cert.KernelIdeal Cert.KernelIdeal.Gen Cert.KernelIdeal.Payload
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- A row of one array against a column of another, plus one entry of a third, each read where the index functions
    say: the common shape of a block's entry and of the whole array's entry. -/
def dotAt (x : S8192x512.Idx → EReal) (wT : S512x256.Idx → EReal) (b : S1x256.Idx → EReal)
    (ex : Fin 512 → S8192x512.Idx) (ew : Fin 512 → S512x256.Idx) (eb : S1x256.Idx) : EReal :=
  (∑ k : Fin 512, x (ex k) * wT (ew k)) + b eb

/-- The array a projection leaves: `x · wT + b`, entry by entry. -/
def G (x : S8192x512.Idx → EReal) (wT : S512x256.Idx → EReal) (b : S1x256.Idx → EReal) : S8192x256.Idx → EReal :=
  fun i => dotAt x wT b (fun k => ix2 (i 0) k) (fun k => ix2 k (i 1)) (ix2 (0 : Fin 1) (i 1))

theorem G_apply (x : S8192x512.Idx → EReal) (wT : S512x256.Idx → EReal) (b : S1x256.Idx → EReal) (i : S8192x256.Idx) :
    G x wT b i = (∑ k : Fin 512, x (ix2 (i 0) k) * wT (ix2 k (i 1))) + b (ix2 (0 : Fin 1) (i 1)) := rfl

/-- The printed index maps over the grid: the input rows move with the output rows, everything else stays at block 0,
    and point `t` writes block `t`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

/-! ## Output window 7 -/

/-- What point `t` writes back is block `t` of the projection of the arrays as the region finds them. -/
theorem flushed7_eq (c : Dev nD) (t : Fin cfg0.N) :
    (dat0 V c).flushed 7 t = ((cfg0.win 7).blk t).view.read (Elt Ideal) (G (V c main_arg0) (V c main_v0) (V c main_v3)) := by
  show (cfg0.win 7).cut (grid0.coords t) ((dat0 V c).after 7 t) = _
  rw [after0_7]
  unfold out0_7
  rw [View.canon_unit_zero hz]
  simp only [View.ld_unit_zero (S := S1024x512) hz, View.ld_unit_zero (S := S512x256) hz, View.ld_unit_zero (S := S1x256) hz]
  obtain ⟨e00, e01, e10, e11, e20, e21, e30, e31, e40, e41, e50, e51, e60, e61, e70, e71, e80, e81, e90, e91⟩ := idx_facts t
  funext j
  obtain ⟨p, q, rfl⟩ : ∃ (p : Fin 1024) (q : Fin 256), j = ix2 p q := ⟨j 0, j 1, eq_ix2 j⟩
  refine ((proj_apply (iblk0 V c 0 t) (iblk0 V c 1 t) (iblk0 V c 2 t) p q)).trans ?_
  show dotAt (V c main_arg0) (V c main_v0) (V c main_v3) (fun k => ((cfg0.win 0).blk t).view.emb (ix2 p k))
        (fun k => ((cfg0.win 1).blk t).view.emb (ix2 k q)) (((cfg0.win 2).blk t).view.emb (ix2 (0 : Fin 1) q))
      = dotAt (V c main_arg0) (V c main_v0) (V c main_v3) (fun k => ix2 ((((cfg0.win 7).blk t).view.emb (ix2 p q)) 0) k)
        (fun k => ix2 k ((((cfg0.win 7).blk t).view.emb (ix2 p q)) 1)) (ix2 (0 : Fin 1) ((((cfg0.win 7).blk t).view.emb (ix2 p q)) 1))
  have hx : (fun k : Fin 512 => ((cfg0.win 0).blk t).view.emb (ix2 p k)) = fun k => ix2 ((((cfg0.win 7).blk t).view.emb (ix2 p q)) 0) k := funext fun k => by
    funext a; apply Fin.ext
    match a with
    | ⟨0, _⟩ => show win0_0.index t (0 : Fin 2) * 1024 + 1 * p.val = win0_7.index t (0 : Fin 2) * 1024 + 1 * p.val; omega
    | ⟨1, _⟩ => show win0_0.index t (1 : Fin 2) * 512 + 1 * k.val = k.val; omega
  have hw : (fun k : Fin 512 => ((cfg0.win 1).blk t).view.emb (ix2 k q)) = fun k => ix2 k ((((cfg0.win 7).blk t).view.emb (ix2 p q)) 1) := funext fun k => by
    funext a; apply Fin.ext
    match a with
    | ⟨0, _⟩ => show win0_1.index t (0 : Fin 2) * 512 + 1 * k.val = k.val; omega
    | ⟨1, _⟩ => show win0_1.index t (1 : Fin 2) * 256 + 1 * q.val = win0_7.index t (1 : Fin 2) * 256 + 1 * q.val; omega
  have hb : ((cfg0.win 2).blk t).view.emb (ix2 (0 : Fin 1) q) = ix2 (0 : Fin 1) ((((cfg0.win 7).blk t).view.emb (ix2 p q)) 1) := by
    funext a; apply Fin.ext
    match a with
    | ⟨0, _⟩ => show win0_2.index t (0 : Fin 2) * 1 + 1 * 0 = 0; omega
    | ⟨1, _⟩ => show win0_2.index t (1 : Fin 2) * 256 + 1 * q.val = win0_7.index t (1 : Fin 2) * 256 + 1 * q.val; omega
  rw [hx, hw, hb]
  rfl

/-- An index of the array is in point `t`'s block iff its row is among the block's 1024 rows. -/
theorem mem_blk7 (t : Fin cfg0.N) (i : S8192x256.Idx) :
    i ∈ ((cfg0.win 7).blk t).view.set ↔ ∀ a : Fin 2, win0_7.index t a * S1024x256.size a ≤ (i a).val ∧ (i a).val < win0_7.index t a * S1024x256.size a + S1024x256.size a := by
  show i ∈ ((View.whole main_v6_0).slice (win0_7.rect t)).set ↔ _
  rw [View.set_slice_whole, Rect.mem_set_unit]
  exact Iff.rfl

/-- Every index is in the block of the point its row falls in. -/
theorem cover7 (i : S8192x256.Idx) : ∃ t : Fin cfg0.N, (cfg0.win 7).flush t = true ∧ i ∈ ((cfg0.win 7).blk t).view.set := by
  have hN : grid0.N = 8 := N_0
  have hi0 : (i 0).val < 8192 := (i 0).isLt
  have hi1 : (i 1).val < 256 := (i 1).isLt
  let t : Fin cfg0.N := ⟨(i 0).val / 1024, by show (i 0).val / 1024 < grid0.N; omega⟩
  obtain ⟨e00, e01, e10, e11, e20, e21, e30, e31, e40, e41, e50, e51, e60, e61, e70, e71, e80, e81, e90, e91⟩ := idx_facts t
  have ht : t.val = (i 0).val / 1024 := rfl
  refine ⟨t, flush0_7 t, ?_⟩
  rw [mem_blk7]
  intro a
  match a with
  | ⟨0, _⟩ => show win0_7.index t (0 : Fin 2) * 1024 ≤ (i 0).val ∧ (i 0).val < win0_7.index t (0 : Fin 2) * 1024 + 1024; omega
  | ⟨1, _⟩ => show win0_7.index t (1 : Fin 2) * 256 ≤ (i 1).val ∧ (i 1).val < win0_7.index t (1 : Fin 2) * 256 + 256; omega

/-- The array after the region: the projection of the arrays as the region finds them. -/
theorem final7 (c : Dev nD) : (dat0 V c).arrAt 7 cfg0.N = G (V c main_arg0) (V c main_v0) (V c main_v3) :=
  (dat0 V c).arrAt_eq_of_cover 7 (G (V c main_arg0) (V c main_v0) (V c main_v3)) (fun t _ => flushed7_eq V c t) cover7

/-! ## Output window 8 -/

/-- What point `t` writes back is block `t` of the projection of the arrays as the region finds them. -/
theorem flushed8_eq (c : Dev nD) (t : Fin cfg0.N) :
    (dat0 V c).flushed 8 t = ((cfg0.win 8).blk t).view.read (Elt Ideal) (G (V c main_arg0) (V c main_v1) (V c main_v4)) := by
  show (cfg0.win 8).cut (grid0.coords t) ((dat0 V c).after 8 t) = _
  rw [after0_8]
  unfold out0_8
  rw [View.canon_unit_zero hz]
  simp only [View.ld_unit_zero (S := S1024x512) hz, View.ld_unit_zero (S := S512x256) hz, View.ld_unit_zero (S := S1x256) hz]
  obtain ⟨e00, e01, e10, e11, e20, e21, e30, e31, e40, e41, e50, e51, e60, e61, e70, e71, e80, e81, e90, e91⟩ := idx_facts t
  funext j
  obtain ⟨p, q, rfl⟩ : ∃ (p : Fin 1024) (q : Fin 256), j = ix2 p q := ⟨j 0, j 1, eq_ix2 j⟩
  refine ((congrFun (congrFun (congrFun (congrFun pay3_eq _) _) _) _).trans (proj_apply (iblk0 V c 0 t) (iblk0 V c 3 t) (iblk0 V c 4 t) p q)).trans ?_
  show dotAt (V c main_arg0) (V c main_v1) (V c main_v4) (fun k => ((cfg0.win 0).blk t).view.emb (ix2 p k))
        (fun k => ((cfg0.win 3).blk t).view.emb (ix2 k q)) (((cfg0.win 4).blk t).view.emb (ix2 (0 : Fin 1) q))
      = dotAt (V c main_arg0) (V c main_v1) (V c main_v4) (fun k => ix2 ((((cfg0.win 8).blk t).view.emb (ix2 p q)) 0) k)
        (fun k => ix2 k ((((cfg0.win 8).blk t).view.emb (ix2 p q)) 1)) (ix2 (0 : Fin 1) ((((cfg0.win 8).blk t).view.emb (ix2 p q)) 1))
  have hx : (fun k : Fin 512 => ((cfg0.win 0).blk t).view.emb (ix2 p k)) = fun k => ix2 ((((cfg0.win 8).blk t).view.emb (ix2 p q)) 0) k := funext fun k => by
    funext a; apply Fin.ext
    match a with
    | ⟨0, _⟩ => show win0_0.index t (0 : Fin 2) * 1024 + 1 * p.val = win0_8.index t (0 : Fin 2) * 1024 + 1 * p.val; omega
    | ⟨1, _⟩ => show win0_0.index t (1 : Fin 2) * 512 + 1 * k.val = k.val; omega
  have hw : (fun k : Fin 512 => ((cfg0.win 3).blk t).view.emb (ix2 k q)) = fun k => ix2 k ((((cfg0.win 8).blk t).view.emb (ix2 p q)) 1) := funext fun k => by
    funext a; apply Fin.ext
    match a with
    | ⟨0, _⟩ => show win0_3.index t (0 : Fin 2) * 512 + 1 * k.val = k.val; omega
    | ⟨1, _⟩ => show win0_3.index t (1 : Fin 2) * 256 + 1 * q.val = win0_8.index t (1 : Fin 2) * 256 + 1 * q.val; omega
  have hb : ((cfg0.win 4).blk t).view.emb (ix2 (0 : Fin 1) q) = ix2 (0 : Fin 1) ((((cfg0.win 8).blk t).view.emb (ix2 p q)) 1) := by
    funext a; apply Fin.ext
    match a with
    | ⟨0, _⟩ => show win0_4.index t (0 : Fin 2) * 1 + 1 * 0 = 0; omega
    | ⟨1, _⟩ => show win0_4.index t (1 : Fin 2) * 256 + 1 * q.val = win0_8.index t (1 : Fin 2) * 256 + 1 * q.val; omega
  rw [hx, hw, hb]
  rfl

/-- An index of the array is in point `t`'s block iff its row is among the block's 1024 rows. -/
theorem mem_blk8 (t : Fin cfg0.N) (i : S8192x256.Idx) :
    i ∈ ((cfg0.win 8).blk t).view.set ↔ ∀ a : Fin 2, win0_8.index t a * S1024x256.size a ≤ (i a).val ∧ (i a).val < win0_8.index t a * S1024x256.size a + S1024x256.size a := by
  show i ∈ ((View.whole main_v6_1).slice (win0_8.rect t)).set ↔ _
  rw [View.set_slice_whole, Rect.mem_set_unit]
  exact Iff.rfl

/-- Every index is in the block of the point its row falls in. -/
theorem cover8 (i : S8192x256.Idx) : ∃ t : Fin cfg0.N, (cfg0.win 8).flush t = true ∧ i ∈ ((cfg0.win 8).blk t).view.set := by
  have hN : grid0.N = 8 := N_0
  have hi0 : (i 0).val < 8192 := (i 0).isLt
  have hi1 : (i 1).val < 256 := (i 1).isLt
  let t : Fin cfg0.N := ⟨(i 0).val / 1024, by show (i 0).val / 1024 < grid0.N; omega⟩
  obtain ⟨e00, e01, e10, e11, e20, e21, e30, e31, e40, e41, e50, e51, e60, e61, e70, e71, e80, e81, e90, e91⟩ := idx_facts t
  have ht : t.val = (i 0).val / 1024 := rfl
  refine ⟨t, flush0_8 t, ?_⟩
  rw [mem_blk8]
  intro a
  match a with
  | ⟨0, _⟩ => show win0_8.index t (0 : Fin 2) * 1024 ≤ (i 0).val ∧ (i 0).val < win0_8.index t (0 : Fin 2) * 1024 + 1024; omega
  | ⟨1, _⟩ => show win0_8.index t (1 : Fin 2) * 256 ≤ (i 1).val ∧ (i 1).val < win0_8.index t (1 : Fin 2) * 256 + 256; omega

/-- The array after the region: the projection of the arrays as the region finds them. -/
theorem final8 (c : Dev nD) : (dat0 V c).arrAt 8 cfg0.N = G (V c main_arg0) (V c main_v1) (V c main_v4) :=
  (dat0 V c).arrAt_eq_of_cover 8 (G (V c main_arg0) (V c main_v1) (V c main_v4)) (fun t _ => flushed8_eq V c t) cover8

/-! ## Output window 9 -/

/-- What point `t` writes back is block `t` of the projection of the arrays as the region finds them. -/
theorem flushed9_eq (c : Dev nD) (t : Fin cfg0.N) :
    (dat0 V c).flushed 9 t = ((cfg0.win 9).blk t).view.read (Elt Ideal) (G (V c main_arg0) (V c main_v2) (V c main_v5)) := by
  show (cfg0.win 9).cut (grid0.coords t) ((dat0 V c).after 9 t) = _
  rw [after0_9]
  unfold out0_9
  rw [View.canon_unit_zero hz]
  simp only [View.ld_unit_zero (S := S1024x512) hz, View.ld_unit_zero (S := S512x256) hz, View.ld_unit_zero (S := S1x256) hz]
  obtain ⟨e00, e01, e10, e11, e20, e21, e30, e31, e40, e41, e50, e51, e60, e61, e70, e71, e80, e81, e90, e91⟩ := idx_facts t
  funext j
  obtain ⟨p, q, rfl⟩ : ∃ (p : Fin 1024) (q : Fin 256), j = ix2 p q := ⟨j 0, j 1, eq_ix2 j⟩
  refine ((congrFun (congrFun (congrFun (congrFun pay4_eq _) _) _) _).trans (proj_apply (iblk0 V c 0 t) (iblk0 V c 5 t) (iblk0 V c 6 t) p q)).trans ?_
  show dotAt (V c main_arg0) (V c main_v2) (V c main_v5) (fun k => ((cfg0.win 0).blk t).view.emb (ix2 p k))
        (fun k => ((cfg0.win 5).blk t).view.emb (ix2 k q)) (((cfg0.win 6).blk t).view.emb (ix2 (0 : Fin 1) q))
      = dotAt (V c main_arg0) (V c main_v2) (V c main_v5) (fun k => ix2 ((((cfg0.win 9).blk t).view.emb (ix2 p q)) 0) k)
        (fun k => ix2 k ((((cfg0.win 9).blk t).view.emb (ix2 p q)) 1)) (ix2 (0 : Fin 1) ((((cfg0.win 9).blk t).view.emb (ix2 p q)) 1))
  have hx : (fun k : Fin 512 => ((cfg0.win 0).blk t).view.emb (ix2 p k)) = fun k => ix2 ((((cfg0.win 9).blk t).view.emb (ix2 p q)) 0) k := funext fun k => by
    funext a; apply Fin.ext
    match a with
    | ⟨0, _⟩ => show win0_0.index t (0 : Fin 2) * 1024 + 1 * p.val = win0_9.index t (0 : Fin 2) * 1024 + 1 * p.val; omega
    | ⟨1, _⟩ => show win0_0.index t (1 : Fin 2) * 512 + 1 * k.val = k.val; omega
  have hw : (fun k : Fin 512 => ((cfg0.win 5).blk t).view.emb (ix2 k q)) = fun k => ix2 k ((((cfg0.win 9).blk t).view.emb (ix2 p q)) 1) := funext fun k => by
    funext a; apply Fin.ext
    match a with
    | ⟨0, _⟩ => show win0_5.index t (0 : Fin 2) * 512 + 1 * k.val = k.val; omega
    | ⟨1, _⟩ => show win0_5.index t (1 : Fin 2) * 256 + 1 * q.val = win0_9.index t (1 : Fin 2) * 256 + 1 * q.val; omega
  have hb : ((cfg0.win 6).blk t).view.emb (ix2 (0 : Fin 1) q) = ix2 (0 : Fin 1) ((((cfg0.win 9).blk t).view.emb (ix2 p q)) 1) := by
    funext a; apply Fin.ext
    match a with
    | ⟨0, _⟩ => show win0_6.index t (0 : Fin 2) * 1 + 1 * 0 = 0; omega
    | ⟨1, _⟩ => show win0_6.index t (1 : Fin 2) * 256 + 1 * q.val = win0_9.index t (1 : Fin 2) * 256 + 1 * q.val; omega
  rw [hx, hw, hb]
  rfl

/-- An index of the array is in point `t`'s block iff its row is among the block's 1024 rows. -/
theorem mem_blk9 (t : Fin cfg0.N) (i : S8192x256.Idx) :
    i ∈ ((cfg0.win 9).blk t).view.set ↔ ∀ a : Fin 2, win0_9.index t a * S1024x256.size a ≤ (i a).val ∧ (i a).val < win0_9.index t a * S1024x256.size a + S1024x256.size a := by
  show i ∈ ((View.whole main_v6_2).slice (win0_9.rect t)).set ↔ _
  rw [View.set_slice_whole, Rect.mem_set_unit]
  exact Iff.rfl

/-- Every index is in the block of the point its row falls in. -/
theorem cover9 (i : S8192x256.Idx) : ∃ t : Fin cfg0.N, (cfg0.win 9).flush t = true ∧ i ∈ ((cfg0.win 9).blk t).view.set := by
  have hN : grid0.N = 8 := N_0
  have hi0 : (i 0).val < 8192 := (i 0).isLt
  have hi1 : (i 1).val < 256 := (i 1).isLt
  let t : Fin cfg0.N := ⟨(i 0).val / 1024, by show (i 0).val / 1024 < grid0.N; omega⟩
  obtain ⟨e00, e01, e10, e11, e20, e21, e30, e31, e40, e41, e50, e51, e60, e61, e70, e71, e80, e81, e90, e91⟩ := idx_facts t
  have ht : t.val = (i 0).val / 1024 := rfl
  refine ⟨t, flush0_9 t, ?_⟩
  rw [mem_blk9]
  intro a
  match a with
  | ⟨0, _⟩ => show win0_9.index t (0 : Fin 2) * 1024 ≤ (i 0).val ∧ (i 0).val < win0_9.index t (0 : Fin 2) * 1024 + 1024; omega
  | ⟨1, _⟩ => show win0_9.index t (1 : Fin 2) * 256 ≤ (i 1).val ∧ (i 1).val < win0_9.index t (1 : Fin 2) * 256 + 256; omega

/-- The array after the region: the projection of the arrays as the region finds them. -/
theorem final9 (c : Dev nD) : (dat0 V c).arrAt 9 cfg0.N = G (V c main_arg0) (V c main_v2) (V c main_v5) :=
  (dat0 V c).arrAt_eq_of_cover 9 (G (V c main_arg0) (V c main_v2) (V c main_v5)) (fun t _ => flushed9_eq V c t) cover9

end Cert.KernelIdeal.Proj

end
-- ==== Proof.RowSpec.lean ====
/-
  One row of the attention computation, as each program spells it over the extended reals.

  Both programs take a row of logits `l j` (j over the keys) and a column of values `v j` and form
  the softmax-weighted sum of `v` and the entropy of the softmax OF the softmax.  The kernel multiplies by the
  reciprocal of each normaliser and reuses `1 / Σ exp` as the maximum of the first softmax; the reference divides and
  takes that maximum again.  The definitions below are the two spellings, term for term as the programs' operations read
  at the ideal instance (a maximum over a row is the fold of `max` from the word for -∞, a row sum is a finite sum, the
  reference's sums start from the word for zero); `SoftmaxLaws` proves them equal on rows of real numbers.
-/
import Idealize.ShloMosaic.PureOps.Ideal

noncomputable section

namespace Cert.Attn

open Idealize.ShloMosaic

/-- The f32 word for -∞: the start of both programs' row maxima. -/
def ninf : EReal := Ideal.ofBits .f32 0xFF800000#32
/-- The f32 word for zero: the start of the reference's sums. -/
def zero : EReal := Ideal.ofBits .f32 0x00000000#32
/-- The f32 word for one: the numerator of the kernel's reciprocals. -/
def one : EReal := Ideal.ofBits .f32 0x3F800000#32
/-- The f32 word both programs add under the logarithm. -/
def eps : EReal := Ideal.ofBits .f32 0x358637BD#32

variable {n : ℕ}

/-! ## The kernel's spelling -/

def kMax (l : Fin n → EReal) : EReal := (Finset.univ : Finset (Fin n)).fold max ninf l
def kExp (l : Fin n → EReal) (j : Fin n) : EReal := Ideal.exp (l j - kMax l)
def kSum (l : Fin n → EReal) : EReal := ∑ j, kExp l j
def kInv (l : Fin n → EReal) : EReal := Ideal.div one (kSum l)
/-- The kernel's output entry: `(Σ_j e_j · v_j) · (1 / Σ e)`. -/
def kOut (l v : Fin n → EReal) : EReal := (∑ j, kExp l j * v j) * kInv l
def kScore (l : Fin n → EReal) (j : Fin n) : EReal := kExp l j * kInv l
def kExp2 (l : Fin n → EReal) (j : Fin n) : EReal := Ideal.exp (kScore l j - kInv l)
def kSum2 (l : Fin n → EReal) : EReal := ∑ j, kExp2 l j
def kInv2 (l : Fin n → EReal) : EReal := Ideal.div one (kSum2 l)
def kProb (l : Fin n → EReal) (j : Fin n) : EReal := kExp2 l j * kInv2 l
/-- The kernel's row entropy: `0 - Σ_j p_j · log (p_j + ε)`. -/
def kEnt (l : Fin n → EReal) : EReal := zero - ∑ j, kProb l j * Ideal.log (kProb l j + eps)

/-! ## The reference's spelling -/

def rMax (l : Fin n → EReal) : EReal := max ninf ((Finset.univ : Finset (Fin n)).fold max ninf l)
def rExp (l : Fin n → EReal) (j : Fin n) : EReal := Ideal.exp (l j - rMax l)
def rSum (l : Fin n → EReal) : EReal := zero + ∑ j, rExp l j
def rScore (l : Fin n → EReal) (j : Fin n) : EReal := Ideal.div (rExp l j) (rSum l)
def rMax2 (l : Fin n → EReal) : EReal := max ninf ((Finset.univ : Finset (Fin n)).fold max ninf (rScore l))
def rExp2 (l : Fin n → EReal) (j : Fin n) : EReal := Ideal.exp (rScore l j - rMax2 l)
def rSum2 (l : Fin n → EReal) : EReal := zero + ∑ j, rExp2 l j
def rProb (l : Fin n → EReal) (j : Fin n) : EReal := Ideal.div (rExp2 l j) (rSum2 l)
/-- The reference's row sum `0 + Σ_j p_j · log (p_j + ε)` (its sign is flipped after the mean). -/
def rEnt (l : Fin n → EReal) : EReal := zero + ∑ j, rProb l j * Ideal.log (rProb l j + eps)
/-- The reference's output entry: `Σ_j (e_j / Σ e) · v_j`. -/
def rOut (l v : Fin n → EReal) : EReal := ∑ j, rScore l j * v j

end Cert.Attn

end
-- ==== Proof.AttnSpec.lean ====
/-
  The attention layer as one function of the argument arrays.

  From the input `x` (8192 × 512) and three weight matrices (256 × 512) with their biases, both programs form the
  projections `Q = x·Wqᵀ + bq`, `K`, `V` (8192 × 256), the logits `(Q·Kᵀ)·s` (8192 × 8192) and then, row by row, the
  quantities of `RowSpec`.  The two programs differ in the scale's spelling (the word for 1/16, against the quotient
  `1 / √256`) and in the row-wise spelling; this module only names the common pieces.
-/
import proofs.«151166_j11244224381685_1_alg».proof.Proof.RowSpec
import Idealize.ShloMosaic.Lib.ValueIdx

noncomputable section

namespace Cert.Attn

open Idealize.ShloMosaic Idealize.ShloMosaic.ValueIdx

/-- One projected entry: row `i` of `x` against row `a` of the weight matrix, plus the bias entry. -/
def proj (x : (⟨2, ![8192, 512]⟩ : Shape).Idx → EReal) (W : (⟨2, ![256, 512]⟩ : Shape).Idx → EReal)
    (b : (⟨1, ![256]⟩ : Shape).Idx → EReal) (i : Fin 8192) (a : Fin 256) : EReal :=
  (∑ k : Fin 512, x (ix2 i k) * W (ix2 a k)) + b (ix1 a)

/-- Row `i` of the logits: query `i` against every key, scaled by `s`. -/
def logits (s : EReal) (Q K : Fin 8192 → Fin 256 → EReal) (i : Fin 8192) : Fin 8192 → EReal :=
  fun j => (∑ d : Fin 256, Q i d * K j d) * s

/-- The kernel's scale: the f32 word for 1/16. -/
def kScale : EReal := Ideal.ofBits .f32 0x3D800000#32
/-- The reference's scale: one over the square root of the word for 256. -/
def rScale : EReal := Ideal.div one (Ideal.sqrt (Ideal.ofBits .f32 0x43800000#32))
/-- The f32 word for 8192, the divisor of both means. -/
def w8192 : EReal := Ideal.ofBits .f32 0x46000000#32

end Cert.Attn

end
-- ==== Proof.EntryArrays.lean ====
/-
  The three projections as the specification's `proj` of the argument arrays.

  Before the first kernel the host transposes each weight matrix and reshapes each bias to one row; the kernel's three
  output arrays are then `x · Wᵀ + b` of those.  Read at `(i, a)`, the transposed matrix at `(k, a)` is the matrix
  at `(a, k)` and the bias row at `(0, a)` is the bias at `a`: each array's entry is the specification's `proj`.
-/
import proofs.«151166_j11244224381685_1_alg».proof.Proof.KernelRun
import proofs.«151166_j11244224381685_1_alg».proof.Proof.Projection
import proofs.«151166_j11244224381685_1_alg».proof.Proof.AttnSpec
import Idealize.ShloMosaic.Lib.ValueLayout

set_option maxRecDepth 16384

noncomputable section

namespace Cert.KernelIdeal.Results

open Cert.KernelIdeal Cert.KernelIdeal.Gen Cert.Attn
open Idealize.ShloMosaic Idealize.ShloMosaic.TcCoe Idealize.ShloMosaic.Tactic Idealize.ShloMosaic.StableHlo Idealize.ShloMosaic.ValueIdx
open Idealize.SL.Sem

variable (m : (ℓ : Loc nD τ sig) → Buf (Elt Ideal) ℓ) (ρ : Dev nD → PrngReg)

/-! ## The arrays the projection kernel is entered with -/

theorem entry_x (c : Dev nD) : V1 m ρ c main_arg0 = m ((c : Thread nD τ).loc main_arg0) := by
  show StableHlo.after hostOps0 (W0 m ρ c) (Proc.devRef .tc main_arg0) = _
  after_results <;> rfl
theorem entry_wqT (c : Dev nD) : V1 m ρ c main_v0 = transpose S512x256 [1, 0] (m ((c : Thread nD τ).loc main_arg1)) transposes_S256x512_S512x256_1_0 := by
  show StableHlo.after hostOps0 (W0 m ρ c) (Proc.devRef .tc main_v0) = _
  after_results <;> rfl
theorem entry_wkT (c : Dev nD) : V1 m ρ c main_v1 = transpose S512x256 [1, 0] (m ((c : Thread nD τ).loc main_arg3)) transposes_S256x512_S512x256_1_0 := by
  show StableHlo.after hostOps0 (W0 m ρ c) (Proc.devRef .tc main_v1) = _
  after_results <;> rfl
theorem entry_wvT (c : Dev nD) : V1 m ρ c main_v2 = transpose S512x256 [1, 0] (m ((c : Thread nD τ).loc main_arg5)) transposes_S256x512_S512x256_1_0 := by
  show StableHlo.after hostOps0 (W0 m ρ c) (Proc.devRef .tc main_v2) = _
  after_results <;> rfl
theorem entry_bq (c : Dev nD) : V1 m ρ c main_v3 = shapeCast S1x256 (m ((c : Thread nD τ).loc main_arg2)) shapeCasts_S256_S1x256 := by
  show StableHlo.after hostOps0 (W0 m ρ c) (Proc.devRef .tc main_v3) = _
  after_results <;> rfl
theorem entry_bk (c : Dev nD) : V1 m ρ c main_v4 = shapeCast S1x256 (m ((c : Thread nD τ).loc main_arg4)) shapeCasts_S256_S1x256 := by
  show StableHlo.after hostOps0 (W0 m ρ c) (Proc.devRef .tc main_v4) = _
  after_results <;> rfl
theorem entry_bv (c : Dev nD) : V1 m ρ c main_v5 = shapeCast S1x256 (m ((c : Thread nD τ).loc main_arg6)) shapeCasts_S256_S1x256 := by
  show StableHlo.after hostOps0 (W0 m ρ c) (Proc.devRef .tc main_v5) = _
  after_results <;> rfl

/-! ## The three projection arrays after the first kernel -/

theorem Q_array (c : Dev nD) : V2 m ρ c main_v6_0 = Proj.G (V1 m ρ c main_arg0) (V1 m ρ c main_v0) (V1 m ρ c main_v3) :=
  (hF0 m ρ c 7).symm.trans (Proj.final7 (V1 m ρ) c)
theorem K_array (c : Dev nD) : V2 m ρ c main_v6_1 = Proj.G (V1 m ρ c main_arg0) (V1 m ρ c main_v1) (V1 m ρ c main_v4) :=
  (hF0 m ρ c 8).symm.trans (Proj.final8 (V1 m ρ) c)
theorem V_array (c : Dev nD) : V2 m ρ c main_v6_2 = Proj.G (V1 m ρ c main_arg0) (V1 m ρ c main_v2) (V1 m ρ c main_v5) :=
  (hF0 m ρ c 9).symm.trans (Proj.final9 (V1 m ρ) c)

/-! ## Their entries -/

/-- `x · Wᵀ + b` with the transposed matrix and the one-row bias is the specification's projection. -/
theorem G_proj (x : S8192x512.Idx → EReal) (W : S256x512.Idx → EReal) (b : S256.Idx → EReal) (i : Fin 8192) (a : Fin 256) :
    Proj.G x (transpose S512x256 [1, 0] W transposes_S256x512_S512x256_1_0) (shapeCast S1x256 b shapeCasts_S256_S1x256) (ix2 i a)
      = proj x W b i a := by
  show (∑ k : Fin 512, x (ix2 i k) * transpose S512x256 [1, 0] W transposes_S256x512_S512x256_1_0 (ix2 k a))
        + shapeCast S1x256 b shapeCasts_S256_S1x256 (ix2 (0 : Fin 1) a)
      = (∑ k : Fin 512, x (ix2 i k) * W (ix2 a k)) + b (ix1 a)
  rw [shapeCast_a_1a_apply]
  refine congrArg (fun z => z + b (ix1 a)) (Finset.sum_congr rfl fun k _ => ?_)
  exact congrArg (fun z => x (ix2 i k) * z) (transpose_ix2_apply (a := 256) (b := 512) W _ k a)

theorem Q_apply (c : Dev nD) (i : Fin 8192) (a : Fin 256) :
    (V2 m ρ c main_v6_0 : S8192x256.Idx → EReal) (ix2 i a)
      = proj (m ((c : Thread nD τ).loc main_arg0)) (m ((c : Thread nD τ).loc main_arg1)) (m ((c : Thread nD τ).loc main_arg2)) i a := by
  rw [Q_array, entry_x, entry_wqT, entry_bq]
  exact G_proj _ _ _ i a
theorem K_apply (c : Dev nD) (i : Fin 8192) (a : Fin 256) :
    (V2 m ρ c main_v6_1 : S8192x256.Idx → EReal) (ix2 i a)
      = proj (m ((c : Thread nD τ).loc main_arg0)) (m ((c : Thread nD τ).loc main_arg3)) (m ((c : Thread nD τ).loc main_arg4)) i a := by
  rw [K_array, entry_x, entry_wkT, entry_bk]
  exact G_proj _ _ _ i a
theorem V_apply (c : Dev nD) (i : Fin 8192) (a : Fin 256) :
    (V2 m ρ c main_v6_2 : S8192x256.Idx → EReal) (ix2 i a)
      = proj (m ((c : Thread nD τ).loc main_arg0)) (m ((c : Thread nD τ).loc main_arg5)) (m ((c : Thread nD τ).loc main_arg6)) i a := by
  rw [V_array, entry_x, entry_wvT, entry_bv]
  exact G_proj _ _ _ i a

end Cert.KernelIdeal.Results

end
-- ==== Proof.LibTransposedDot.lean ====
/-
  A matrix product whose right operand is contracted on its LAST axis, read at an index, over the
  extended reals.

  For the dimension numbers of an M×K by N×K product (contract the second axis of both operands; no
  batch axes) the entry (i, j) of the product is the sum over k of lhs (i, k) · rhs (j, k): a row of
  the left operand against a row of the right one. Stated once for a `tpu.matmul` accumulating into
  the zero splat and once for the host's `dot_general`, for any extents M, K, N. The contraction index
  of such a product has one axis of extent K, and the sum over it is re-indexed by that coordinate.
-/
import Idealize.ShloMosaic.Lib.ValueIdx
import Idealize.ShloMosaic.PureOps.Ideal.Laws

noncomputable section

open scoped BigOperators

namespace Idealize.ShloMosaic.TransposedDot

open Idealize.ShloMosaic Idealize.ShloMosaic.ValueIdx

variable {M K N : Nat}

/-- The left operand's row coordinate is the result's row coordinate. -/
theorem lhs_row (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column coordinate is the contraction coordinate. -/
theorem lhs_col (j : (⟨2, ![M, N]⟩ : Shape).Idx) (q : (DotDims.transposedRhs M K N).contr.Idx) :
    ((DotDims.transposedRhs M K N).lhsIdx j q 1).val = (q ⟨0, show 0 < (DotDims.transposedRhs M K N).contr.rank from Nat.one_pos⟩).val :=
  (DotDims.transposedRhs M K N).lhsIdx_val_of_single rfl j q

/-- The right operand's row coordinate is the result's COLUMN coordinate. -/
theorem rhs_row (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column coordinate is the contraction coordinate. -/
theorem rhs_col (j : (⟨2, ![M, N]⟩ : Shape).Idx) (q : (DotDims.transposedRhs M K N).contr.Idx) :
    ((DotDims.transposedRhs M K N).rhsIdx j q 1).val = (q ⟨0, show 0 < (DotDims.transposedRhs M K N).contr.rank from Nat.one_pos⟩).val :=
  (DotDims.transposedRhs M K N).rhsIdx_val_of_single rfl j q

/-- The sum over the contraction index is the sum over k of lhs (i, k) · rhs (j, k). -/
theorem sum_contr (lhs : (⟨2, ![M, K]⟩ : Shape).Idx → EReal) (rhs : (⟨2, ![N, K]⟩ : Shape).Idx → EReal)
    (i : Fin M) (j : Fin N) :
    (∑ q : (DotDims.transposedRhs M K N).contr.Idx,
        lhs ((DotDims.transposedRhs M K N).lhsIdx (ix2 i j) q) * rhs ((DotDims.transposedRhs M K N).rhsIdx (ix2 i j) q))
      = ∑ k : Fin K, lhs (ix2 i k) * rhs (ix2 j k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 i j) ((contrEquiv1 (DotDims.transposedRhs M K N) K rfl rfl).symm k) = ix2 i k :=
    funext fun a => Fin.ext (by
      match a with
      | ⟨0, _⟩ => exact lhs_row _ _
      | ⟨1, _⟩ => exact (lhs_col _ _).trans hk)
  have er : (DotDims.transposedRhs M K N).rhsIdx (ix2 i j) ((contrEquiv1 (DotDims.transposedRhs M K N) K rfl rfl).symm k) = ix2 j k :=
    funext fun a => Fin.ext (by
      match a with
      | ⟨0, _⟩ => exact rhs_row _ _
      | ⟨1, _⟩ => exact (rhs_col _ _).trans hk)
  rw [el, er]

/-- A `tpu.matmul` of these dimension numbers into the zero splat, at (i, j): the sum over k of the products. -/
theorem matmul_zero_apply {φ₁ φ₂ : FTy} (prec : Option ContractPrecision)
    (lhs : FVec Ideal ⟨2, ![M, K]⟩ φ₁) (rhs : FVec Ideal ⟨2, ![N, K]⟩ φ₂) (i : Fin M) (j : Fin N) :
    FloatOps.matmul (DotDims.transposedRhs M K N) prec lhs rhs (constant ⟨2, ![M, N]⟩ .f32 0x00000000#32) (ix2 i j)
      = ∑ k : Fin K, lhs (ix2 i k) * rhs (ix2 j k) :=
  (Ideal.matmul_constant_zero_apply (DotDims.transposedRhs M K N) prec lhs rhs (ix2 i j)).trans (sum_contr lhs rhs i j)

/-- The host's `dot_general` of these dimension numbers, at (i, j): the same sum. -/
theorem dotGeneral_apply {φ₁ φ₂ : FTy} (prec : Option ContractPrecision) (sched : HostSchedule)
    (lhs : FVec Ideal ⟨2, ![M, K]⟩ φ₁) (rhs : FVec Ideal ⟨2, ![N, K]⟩ φ₂) (i : Fin M) (j : Fin N) :
    FloatOps.dotGeneral (DotDims.transposedRhs M K N) prec sched lhs rhs (ix2 i j)
      = ∑ k : Fin K, lhs (ix2 i k) * rhs (ix2 j k) :=
  (Ideal.dotGeneral_apply (DotDims.transposedRhs M K N) prec sched lhs rhs (ix2 i j)).trans (sum_contr lhs rhs i j)

end Idealize.ShloMosaic.TransposedDot

end
-- ==== Proof.AttnPayload.lean ====
/-
  The attention kernel's two stored values, read at an index as the row-wise specification.

  For a block of 128 queries q (128 × 256), the keys k and the values v (8192 × 256 each), the kernel forms the
  logits l[r, j] = (Σ_d q[r, d] · k[j, d]) · s with s the word for 1/16, and then, row by row: the maximum m of
  the row (a fold of max from the word for -∞), e[j] = exp (l[j] − m), the reciprocal 1 / Σ_j e[j], the output
  entry (Σ_j e[j] · v[j, a]) · (1 / Σ e), the scores e[j] · (1 / Σ e), a second softmax of the scores whose
  maximum is taken to be 1 / Σ e, and the entropy 0 − Σ_j p[j] · log (p[j] + ε) of its probabilities p.

  Every operation between them only moves values: a product against the keys contracts the last axis of both
  operands, so its entry (r, j) is a row against a row; a reduction over the second axis, read at row r, runs over
  the entries (r, j); a [128] vector viewed as a [128, 1] column and that column broadcast along a row both read,
  at row r, the entry of row r; a scalar broadcast reads the scalar; a change of float format is the identity on the
  extended reals. Reading each stage at an index therefore gives the row-wise definitions term for term.
-/
import proofs.«151166_j11244224381685_1_alg».proof.Proof.Gen.KernelIdeal.Skeleton
import proofs.«151166_j11244224381685_1_alg».proof.Proof.AttnSpec
import proofs.«151166_j11244224381685_1_alg».proof.Proof.LibPlainDot
import proofs.«151166_j11244224381685_1_alg».proof.Proof.LibTransposedDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Cert.Attn
open Idealize.ShloMosaic Idealize.ShloMosaic.ValueIdx

/-! ## A column: a vector viewed as one, and a column broadcast along the rows' entries -/

section Column
variable {α : Type}

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Column

/-! ## A reduction over the second axis of a 128 × 8192 array, read at a row -/

/-- Row `r` with the coordinate `j` put back on the reduced axis is the index `(r, j)`. -/
theorem lift_row (r : Fin 128) (j : Fin 8192) : reduces_S128x8192_S128.lift (ix1 r) j = ix2 r j := by
  funext a
  apply Fin.ext
  match a with
  | ⟨0, _⟩ => rfl
  | ⟨1, _⟩ => rfl

/-- The maximum over the second axis, at row `r`: the fold of `max` from the word for -∞ over the row's entries. -/
theorem rowMax_apply (x : FVec Ideal S128x8192 .f32) (r : Fin 128) :
    multiReduction .maximumf [1] S128 x 0xFF800000#32 reduces_S128x8192_S128 (.inl rfl) rfl (ix1 r)
      = kMax (fun j : Fin 8192 => x (ix2 r j)) := by
  have e : (x ∘ reduces_S128x8192_S128.lift (ix1 r)) = fun j : Fin 8192 => x (ix2 r j) :=
    funext fun j => congrArg x (lift_row r j)
  refine (Ideal.multiReduction_maximumf_single x _ reduces_S128x8192_S128 _ _ (ix1 r)).trans ?_
  rw [e]
  rfl

/-- The sum over the second axis, at row `r`: the sum of the row's entries. -/
theorem rowSum_apply (x : FVec Ideal S128x8192 .f32) (r : Fin 128) :
    multiReduction .add [1] S128 x 0x00000000#32 reduces_S128x8192_S128 (.inl rfl) rfl (ix1 r)
      = ∑ j : Fin 8192, x (ix2 r j) :=
  (Ideal.multiReduction_add_single x _ reduces_S128x8192_S128 _ _ (ix1 r)).trans
    (Finset.sum_congr rfl fun j _ => congrArg x (lift_row r j))

/-! ## The logits -/

/-- The printed record of the product against the keys contracts the last axis of both operands. -/
theorem dot_qk_eq : dot_S128x256_S8192x256_S128x8192_1_1_0_0_n_n = DotDims.transposedRhs 128 256 8192 := rfl

/-- The printed record of the product against the values is the plain 128×8192 · 8192×256 one. -/
theorem dot_pv_eq : dot_S128x8192_S8192x256_S128x256_1_0_0_1_n_n = DotDims.plain 128 8192 256 := rfl

/-- Row `r` of the logits: query `r` against every key, times the scale word. -/
def lrow (q : Vec Ideal S128x256 .bf16) (k : Vec Ideal S8192x256 .bf16) (r : Fin 128) : Fin 8192 → EReal :=
  fun j => (∑ d : Fin 256, q (ix2 r d) * k (ix2 j d)) * kScale

/-- The logits as the kernel forms them: the product into the zero splat, times the broadcast scale word. -/
def lg (q : Vec Ideal S128x256 .bf16) (k : Vec Ideal S8192x256 .bf16) : FVec Ideal S128x8192 .f32 :=
  mulf (matmul dot_S128x256_S8192x256_S128x8192_1_1_0_0_n_n none
      (shapeCast S128x256 q shapeCasts_S128x256_S128x256 : FVec Ideal S128x256 .bf16)
      (shapeCast S8192x256 k shapeCasts_S8192x256_S8192x256 : FVec Ideal S8192x256 .bf16)
      (constant S128x8192 .f32 0x00000000#32))
    (broadcast S128x8192 (Scalar.ofBits .f32 0x3D800000#32))

/-- The logit at `(r, j)`. -/
theorem lg_apply (q : Vec Ideal S128x256 .bf16) (k : Vec Ideal S8192x256 .bf16) (r : Fin 128) (j : Fin 8192) :
    lg q k (ix2 r j) = lrow q k r j := by
  unfold lg lrow
  rw [mulf_apply, broadcast_apply, shapeCast_self, shapeCast_self, dot_qk_eq]
  exact congrArg (fun z => z * kScale) (TransposedDot.matmul_zero_apply none q k r j)

/-- Row `r` of the logits, as a function of the key. -/
theorem lg_row (q : Vec Ideal S128x256 .bf16) (k : Vec Ideal S8192x256 .bf16) (r : Fin 128) :
    (fun j : Fin 8192 => lg q k (ix2 r j)) = lrow q k r := funext (lg_apply q k r)

/-! ## The first softmax: exponentials, their reciprocal sum, the output -/

set_option maxRecDepth 65536 in
/-- The first payload is the exponential of the logits less their row maximum, kept as a column and broadcast. -/
theorem k1_pay2_eq (q : Vec Ideal S128x256 .bf16) (k : Vec Ideal S8192x256 .bf16) :
    k1_pay2 q k = exp (subf (lg q k) (broadcastTo S128x8192
      (shapeCast S128x1 (multiReduction .maximumf [1] S128 (lg q k) 0xFF800000#32 reduces_S128x8192_S128 (.inl rfl) rfl)
        shapeCasts_S128_S128x1) broadcasts_S128x1_S128x8192)) := rfl

/-- `e[j] = exp (l[j] − max l)` at `(r, j)`. -/
theorem k1_pay2_apply (q : Vec Ideal S128x256 .bf16) (k : Vec Ideal S8192x256 .bf16) (r : Fin 128) (j : Fin 8192) :
    k1_pay2 q k (ix2 r j) = kExp (lrow q k r) j := by
  rw [k1_pay2_eq]
  show Ideal.exp (lg q k (ix2 r j) - broadcastTo S128x8192
      (shapeCast S128x1 (multiReduction .maximumf [1] S128 (lg q k) 0xFF800000#32 reduces_S128x8192_S128 (.inl rfl) rfl)
        shapeCasts_S128_S128x1) broadcasts_S128x1_S128x8192 (ix2 r j)) = Ideal.exp (lrow q k r j - kMax (lrow q k r))
  rw [broadcastTo_a1_ab_apply, shapeCast_a_a1_apply, rowMax_apply, lg_row, lg_apply]

/-- Row `r` of the exponentials. -/
theorem k1_pay2_row (q : Vec Ideal S128x256 .bf16) (k : Vec Ideal S8192x256 .bf16) (r : Fin 128) :
    (fun j : Fin 8192 => k1_pay2 q k (ix2 r j)) = kExp (lrow q k r) := funext (k1_pay2_apply q k r)

set_option maxRecDepth 65536 in
/-- The second payload is the word for one over the row sums of the first, kept as a column. -/
theorem k1_pay3_eq (q : Vec Ideal S128x256 .bf16) (k : Vec Ideal S8192x256 .bf16) :
    k1_pay3 q k = divf (broadcast S128x1 (Scalar.ofBits .f32 0x3F800000#32))
      (shapeCast S128x1 (multiReduction .add [1] S128 (k1_pay2 q k) 0x00000000#32 reduces_S128x8192_S128 (.inl rfl) rfl)
        shapeCasts_S128_S128x1) := rfl

/-- `1 / Σ_j e[j]` at row `r`. -/
theorem k1_pay3_apply (q : Vec Ideal S128x256 .bf16) (k : Vec Ideal S8192x256 .bf16) (r : Fin 128) (u : Fin 1) :
    k1_pay3 q k (ix2 r u) = kInv (lrow q k r) := by
  rw [k1_pay3_eq, divf_apply, broadcast_apply, shapeCast_a_a1_apply, rowSum_apply, k1_pay2_row]
  rfl

set_option maxRecDepth 65536 in
/-- The stored output block is the product of the exponentials against the values, times the reciprocal column
    broadcast along the rows' entries. -/
theorem k1_pay4_eq (q : Vec Ideal S128x256 .bf16) (k v : Vec Ideal S8192x256 .bf16) :
    k1_pay4 q k v = mulf
      (matmul dot_S128x8192_S8192x256_S128x256_1_0_0_1_n_n none
        (truncf .bf16 (k1_pay2 q k) bitsLt_bf16_f32 : FVec Ideal S128x8192 .bf16)
        (shapeCast S8192x256 v shapeCasts_S8192x256_S8192x256 : FVec Ideal S8192x256 .bf16)
        (constant S128x256 .f32 0x00000000#32))
      (broadcastTo S128x256 (k1_pay3 q k) broadcasts_S128x1_S128x256) := rfl

/-- THE STORED OUTPUT at `(r, a)`: `(Σ_j e[j] · v[j, a]) · (1 / Σ e)` of row `r` of the logits. -/
theorem attn_out_apply (q : Vec Ideal S128x256 .bf16) (k v : Vec Ideal S8192x256 .bf16) (r : Fin 128) (a : Fin 256) :
    k1_pay4 q k v (ix2 r a)
      = kOut (fun j : Fin 8192 => (∑ d : Fin 256, q (ix2 r d) * k (ix2 j d)) * kScale) (fun j : Fin 8192 => v (ix2 j a)) := by
  show k1_pay4 q k v (ix2 r a) = kOut (lrow q k r) (fun j : Fin 8192 => v (ix2 j a))
  unfold kOut
  rw [k1_pay4_eq, mulf_apply, broadcastTo_a1_ab_apply, k1_pay3_apply, shapeCast_self, dot_pv_eq]
  exact congrArg (fun z => z * kInv (lrow q k r))
    ((PlainDot.matmul_zero_apply none (truncf .bf16 (k1_pay2 q k) bitsLt_bf16_f32) v r a).trans
      (Finset.sum_congr rfl fun j _ => congrArg (fun z => z * v (ix2 j a)) (k1_pay2_apply q k r j)))

/-! ## The second softmax and the entropy -/

/-- The second exponentials: the scores `e · (1 / Σ e)` less their maximum, taken to be `1 / Σ e`. -/
def e2 (q : Vec Ideal S128x256 .bf16) (k : Vec Ideal S8192x256 .bf16) : FVec Ideal S128x8192 .f32 :=
  exp (subf (mulf (k1_pay2 q k) (broadcastTo S128x8192 (k1_pay3 q k) broadcasts_S128x1_S128x8192))
    (broadcastTo S128x8192 (k1_pay3 q k) broadcasts_S128x1_S128x8192))

theorem e2_apply (q : Vec Ideal S128x256 .bf16) (k : Vec Ideal S8192x256 .bf16) (r : Fin 128) (j : Fin 8192) :
    e2 q k (ix2 r j) = kExp2 (lrow q k r) j := by
  show Ideal.exp (k1_pay2 q k (ix2 r j) * broadcastTo S128x8192 (k1_pay3 q k) broadcasts_S128x1_S128x8192 (ix2 r j)
      - broadcastTo S128x8192 (k1_pay3 q k) broadcasts_S128x1_S128x8192 (ix2 r j))
    = Ideal.exp (kExp (lrow q k r) j * kInv (lrow q k r) - kInv (lrow q k r))
  rw [broadcastTo_a1_ab_apply, k1_pay3_apply, k1_pay2_apply]

theorem e2_row (q : Vec Ideal S128x256 .bf16) (k : Vec Ideal S8192x256 .bf16) (r : Fin 128) :
    (fun j : Fin 8192 => e2 q k (ix2 r j)) = kExp2 (lrow q k r) := funext (e2_apply q k r)

/-- The probabilities: the second exponentials times the reciprocal of their row sum. -/
def pr (q : Vec Ideal S128x256 .bf16) (k : Vec Ideal S8192x256 .bf16) : FVec Ideal S128x8192 .f32 :=
  mulf (e2 q k) (broadcastTo S128x8192
    (divf (broadcast S128x1 (Scalar.ofBits .f32 0x3F800000#32))
      (shapeCast S128x1 (multiReduction .add [1] S128 (e2 q k) 0x00000000#32 reduces_S128x8192_S128 (.inl rfl) rfl)
        shapeCasts_S128_S128x1))
    broadcasts_S128x1_S128x8192)

theorem pr_apply (q : Vec Ideal S128x256 .bf16) (k : Vec Ideal S8192x256 .bf16) (r : Fin 128) (j : Fin 8192) :
    pr q k (ix2 r j) = kProb (lrow q k r) j := by
  unfold pr
  rw [mulf_apply, broadcastTo_a1_ab_apply, divf_apply, broadcast_apply, shapeCast_a_a1_apply, rowSum_apply, e2_row, e2_apply]
  rfl

set_option maxRecDepth 65536 in
/-- The last payload is the column of the row sums of `p · log (p + ε)`. -/
theorem k1_pay5_eq (q : Vec Ideal S128x256 .bf16) (k : Vec Ideal S8192x256 .bf16) :
    k1_pay5 q k = shapeCast S128x1
      (multiReduction .add [1] S128
        (mulf (pr q k) (log (addf (pr q k) (broadcast S128x8192 (Scalar.ofBits .f32 0x358637BD#32)))))
        0x00000000#32 reduces_S128x8192_S128 (.inl rfl) rfl)
      shapeCasts_S128_S128x1 := rfl

/-- `Σ_j p[j] · log (p[j] + ε)` at row `r`. -/
theorem k1_pay5_apply (q : Vec Ideal S128x256 .bf16) (k : Vec Ideal S8192x256 .bf16) (r : Fin 128) (u : Fin 1) :
    k1_pay5 q k (ix2 r u) = ∑ j : Fin 8192, kProb (lrow q k r) j * Ideal.log (kProb (lrow q k r) j + eps) := by
  rw [k1_pay5_eq, shapeCast_a_a1_apply, rowSum_apply]
  refine Finset.sum_congr rfl fun j _ => ?_
  show pr q k (ix2 r j) * Ideal.log (pr q k (ix2 r j) + eps) = _
  rw [pr_apply]

/-- THE STORED ENTROPY at row `r`: `0 − Σ_j p[j] · log (p[j] + ε)` of row `r` of the logits. -/
theorem attn_ent_apply (q : Vec Ideal S128x256 .bf16) (k : Vec Ideal S8192x256 .bf16) (r : Fin 128) (u : Fin 1) :
    k1_pay1 (k1_pay5 q k) (ix2 r u)
      = kEnt (fun j : Fin 8192 => (∑ d : Fin 256, q (ix2 r d) * k (ix2 j d)) * kScale) := by
  show zero - k1_pay5 q k (ix2 r u) = kEnt (lrow q k r)
  rw [k1_pay5_apply]
  rfl

end Cert.KernelIdeal.Payload

end
-- ==== Proof.AttnRegion.lean ====
/-
  The attention kernel's two output arrays as whole-array functions.

  The kernel runs over 64 grid points; point `t` reads rows `128·t … 128·t + 127` of the queries and the whole of the
  keys and of the values, and writes the same rows of the output array and of the entropy column.  Row `i` of the
  output is the softmax-weighted sum of the values for the logits of query `i` against every key; entry `i` of the
  column is that row's entropy.  The blocks are restrictions of these two functions, and they tile the arrays.
-/
import proofs.«151166_j11244224381685_1_alg».proof.Proof.Gen.KernelIdeal.Frame
import proofs.«151166_j11244224381685_1_alg».proof.Proof.AttnPayload

set_option maxRecDepth 16384

noncomputable section

namespace Cert.KernelIdeal.AttnRegion

open Cert.KernelIdeal Cert.KernelIdeal.Gen Cert.KernelIdeal.Payload Cert.Attn
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- A row of logits: one query row against every key row, scaled; the rows are read where the index functions say. -/
def rowLogits (Qa Ka : S8192x256.Idx → EReal) (eq : Fin 256 → S8192x256.Idx) (ek : Fin 8192 → Fin 256 → S8192x256.Idx) :
    Fin 8192 → EReal :=
  fun j => (∑ d : Fin 256, Qa (eq d) * Ka (ek j d)) * kScale

/-- An output entry: the kernel's softmax-weighted sum of one column of the values. -/
def outAt (Qa Ka Va : S8192x256.Idx → EReal) (eq : Fin 256 → S8192x256.Idx) (ek : Fin 8192 → Fin 256 → S8192x256.Idx)
    (ev : Fin 8192 → S8192x256.Idx) : EReal :=
  kOut (rowLogits Qa Ka eq ek) (fun j => Va (ev j))

/-- An entropy entry: the kernel's entropy of one row. -/
def entAt (Qa Ka : S8192x256.Idx → EReal) (eq : Fin 256 → S8192x256.Idx) (ek : Fin 8192 → Fin 256 → S8192x256.Idx) : EReal :=
  kEnt (rowLogits Qa Ka eq ek)

/-- The output array: entry `(i, a)` from query row `i`, every key row, and column `a` of the values. -/
def Gout (Qa Ka Va : S8192x256.Idx → EReal) : S8192x256.Idx → EReal :=
  fun i => outAt Qa Ka Va (fun d => ix2 (i 0) d) (fun j d => ix2 j d) (fun j => ix2 j (i 1))

/-- The entropy column: entry `(i, 0)` from query row `i` and every key row. -/
def Gent (Qa Ka : S8192x256.Idx → EReal) : S8192x1.Idx → EReal :=
  fun i => entAt Qa Ka (fun d => ix2 (i 0) d) (fun j d => ix2 j d)

/-- The printed index maps over the grid: the query rows move with the output rows, the keys and values stay whole, and
    point `t` writes block `t`. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-! ## The output array (window 3) -/

theorem flushed3_eq (c : Dev nD) (t : Fin cfg1.N) :
    (dat1 V c).flushed 3 t = ((cfg1.win 3).blk t).view.read (Elt Ideal) (Gout (V c main_v6_0) (V c main_v6_1) (V c main_v6_2)) := by
  show (cfg1.win 3).cut (grid1.coords t) ((dat1 V c).after 3 t) = _
  rw [after1_3]
  unfold out1_3
  rw [View.canon_unit_zero hz]
  simp only [View.ld_unit_zero (S := S128x256) hz, View.ld_unit_zero (S := S8192x256) hz]
  obtain ⟨e00, e01, e10, e11, e20, e21, e30, e31, e40, e41⟩ := idx_facts t
  funext j
  obtain ⟨r, a, rfl⟩ : ∃ (r : Fin 128) (a : Fin 256), j = ix2 r a := ⟨j 0, j 1, eq_ix2 j⟩
  refine (attn_out_apply (iblk1 V c 0 t) (iblk1 V c 1 t) (iblk1 V c 2 t) r a).trans ?_
  show outAt (V c main_v6_0) (V c main_v6_1) (V c main_v6_2) (fun d => ((cfg1.win 0).blk t).view.emb (ix2 r d))
        (fun j d => ((cfg1.win 1).blk t).view.emb (ix2 j d)) (fun j => ((cfg1.win 2).blk t).view.emb (ix2 j a))
      = outAt (V c main_v6_0) (V c main_v6_1) (V c main_v6_2) (fun d => ix2 ((((cfg1.win 3).blk t).view.emb (ix2 r a)) 0) d)
        (fun j d => ix2 j d) (fun j => ix2 j ((((cfg1.win 3).blk t).view.emb (ix2 r a)) 1))
  have hq : (fun d : Fin 256 => ((cfg1.win 0).blk t).view.emb (ix2 r d)) = fun d => ix2 ((((cfg1.win 3).blk t).view.emb (ix2 r a)) 0) d := funext fun d => by
    funext ax; apply Fin.ext
    match ax with
    | ⟨0, _⟩ => show win1_0.index t (0 : Fin 2) * 128 + 1 * r.val = win1_3.index t (0 : Fin 2) * 128 + 1 * r.val; omega
    | ⟨1, _⟩ => show win1_0.index t (1 : Fin 2) * 256 + 1 * d.val = d.val; omega
  have hk : (fun (j : Fin 8192) (d : Fin 256) => ((cfg1.win 1).blk t).view.emb (ix2 j d)) = fun j d => ix2 j d := funext fun j => funext fun d => by
    funext ax; apply Fin.ext
    match ax with
    | ⟨0, _⟩ => show win1_1.index t (0 : Fin 2) * 8192 + 1 * j.val = j.val; omega
    | ⟨1, _⟩ => show win1_1.index t (1 : Fin 2) * 256 + 1 * d.val = d.val; omega
  have hv : (fun j : Fin 8192 => ((cfg1.win 2).blk t).view.emb (ix2 j a)) = fun j => ix2 j ((((cfg1.win 3).blk t).view.emb (ix2 r a)) 1) := funext fun j => by
    funext ax; apply Fin.ext
    match ax with
    | ⟨0, _⟩ => show win1_2.index t (0 : Fin 2) * 8192 + 1 * j.val = j.val; omega
    | ⟨1, _⟩ => show win1_2.index t (1 : Fin 2) * 256 + 1 * a.val = win1_3.index t (1 : Fin 2) * 256 + 1 * a.val; omega
  rw [hq, hk, hv]
  rfl

theorem mem_blk3 (t : Fin cfg1.N) (i : S8192x256.Idx) :
    i ∈ ((cfg1.win 3).blk t).view.set ↔ ∀ a : Fin 2, win1_3.index t a * S128x256.size a ≤ (i a).val ∧ (i a).val < win1_3.index t a * S128x256.size a + S128x256.size a := by
  show i ∈ ((View.whole main_v7_0).slice (win1_3.rect t)).set ↔ _
  rw [View.set_slice_whole, Rect.mem_set_unit]
  exact Iff.rfl

theorem cover3 (i : S8192x256.Idx) : ∃ t : Fin cfg1.N, (cfg1.win 3).flush t = true ∧ i ∈ ((cfg1.win 3).blk t).view.set := by
  have hN : grid1.N = 64 := N_1
  have hi0 : (i 0).val < 8192 := (i 0).isLt
  have hi1 : (i 1).val < 256 := (i 1).isLt
  let t : Fin cfg1.N := ⟨(i 0).val / 128, by show (i 0).val / 128 < grid1.N; omega⟩
  obtain ⟨e00, e01, e10, e11, e20, e21, e30, e31, e40, e41⟩ := idx_facts t
  have ht : t.val = (i 0).val / 128 := rfl
  refine ⟨t, flush1_3 t, ?_⟩
  rw [mem_blk3]
  intro a
  match a with
  | ⟨0, _⟩ => show win1_3.index t (0 : Fin 2) * 128 ≤ (i 0).val ∧ (i 0).val < win1_3.index t (0 : Fin 2) * 128 + 128; omega
  | ⟨1, _⟩ => show win1_3.index t (1 : Fin 2) * 256 ≤ (i 1).val ∧ (i 1).val < win1_3.index t (1 : Fin 2) * 256 + 256; omega

/-- The output array after the region. -/
theorem final3 (c : Dev nD) : (dat1 V c).arrAt 3 cfg1.N = Gout (V c main_v6_0) (V c main_v6_1) (V c main_v6_2) :=
  (dat1 V c).arrAt_eq_of_cover 3 (Gout (V c main_v6_0) (V c main_v6_1) (V c main_v6_2)) (fun t _ => flushed3_eq V c t) cover3

/-! ## The entropy column (window 4) -/

theorem flushed4_eq (c : Dev nD) (t : Fin cfg1.N) :
    (dat1 V c).flushed 4 t = ((cfg1.win 4).blk t).view.read (Elt Ideal) (Gent (V c main_v6_0) (V c main_v6_1)) := by
  show (cfg1.win 4).cut (grid1.coords t) ((dat1 V c).after 4 t) = _
  rw [after1_4]
  unfold out1_4
  rw [View.canon_unit_zero hz]
  simp only [View.ld_unit_zero (S := S128x256) hz, View.ld_unit_zero (S := S8192x256) hz]
  obtain ⟨e00, e01, e10, e11, e20, e21, e30, e31, e40, e41⟩ := idx_facts t
  funext j
  obtain ⟨r, u, rfl⟩ : ∃ (r : Fin 128) (u : Fin 1), j = ix2 r u := ⟨j 0, j 1, eq_ix2 j⟩
  refine (attn_ent_apply (iblk1 V c 0 t) (iblk1 V c 1 t) r u).trans ?_
  show entAt (V c main_v6_0) (V c main_v6_1) (fun d => ((cfg1.win 0).blk t).view.emb (ix2 r d))
        (fun j d => ((cfg1.win 1).blk t).view.emb (ix2 j d))
      = entAt (V c main_v6_0) (V c main_v6_1) (fun d => ix2 ((((cfg1.win 4).blk t).view.emb (ix2 r u)) 0) d) (fun j d => ix2 j d)
  have hq : (fun d : Fin 256 => ((cfg1.win 0).blk t).view.emb (ix2 r d)) = fun d => ix2 ((((cfg1.win 4).blk t).view.emb (ix2 r u)) 0) d := funext fun d => by
    funext ax; apply Fin.ext
    match ax with
    | ⟨0, _⟩ => show win1_0.index t (0 : Fin 2) * 128 + 1 * r.val = win1_4.index t (0 : Fin 2) * 128 + 1 * r.val; omega
    | ⟨1, _⟩ => show win1_0.index t (1 : Fin 2) * 256 + 1 * d.val = d.val; omega
  have hk : (fun (j : Fin 8192) (d : Fin 256) => ((cfg1.win 1).blk t).view.emb (ix2 j d)) = fun j d => ix2 j d := funext fun j => funext fun d => by
    funext ax; apply Fin.ext
    match ax with
    | ⟨0, _⟩ => show win1_1.index t (0 : Fin 2) * 8192 + 1 * j.val = j.val; omega
    | ⟨1, _⟩ => show win1_1.index t (1 : Fin 2) * 256 + 1 * d.val = d.val; omega
  rw [hq, hk]
  rfl

theorem mem_blk4 (t : Fin cfg1.N) (i : S8192x1.Idx) :
    i ∈ ((cfg1.win 4).blk t).view.set ↔ ∀ a : Fin 2, win1_4.index t a * S128x1.size a ≤ (i a).val ∧ (i a).val < win1_4.index t a * S128x1.size a + S128x1.size a := by
  show i ∈ ((View.whole main_v7_1).slice (win1_4.rect t)).set ↔ _
  rw [View.set_slice_whole, Rect.mem_set_unit]
  exact Iff.rfl

theorem cover4 (i : S8192x1.Idx) : ∃ t : Fin cfg1.N, (cfg1.win 4).flush t = true ∧ i ∈ ((cfg1.win 4).blk t).view.set := by
  have hN : grid1.N = 64 := N_1
  have hi0 : (i 0).val < 8192 := (i 0).isLt
  have hi1 : (i 1).val < 1 := (i 1).isLt
  let t : Fin cfg1.N := ⟨(i 0).val / 128, by show (i 0).val / 128 < grid1.N; omega⟩
  obtain ⟨e00, e01, e10, e11, e20, e21, e30, e31, e40, e41⟩ := idx_facts t
  have ht : t.val = (i 0).val / 128 := rfl
  refine ⟨t, flush1_4 t, ?_⟩
  rw [mem_blk4]
  intro a
  match a with
  | ⟨0, _⟩ => show win1_4.index t (0 : Fin 2) * 128 ≤ (i 0).val ∧ (i 0).val < win1_4.index t (0 : Fin 2) * 128 + 128; omega
  | ⟨1, _⟩ => show win1_4.index t (1 : Fin 2) * 1 ≤ (i 1).val ∧ (i 1).val < win1_4.index t (1 : Fin 2) * 1 + 1; omega

/-- The entropy column after the region. -/
theorem final4 (c : Dev nD) : (dat1 V c).arrAt 4 cfg1.N = Gent (V c main_v6_0) (V c main_v6_1) :=
  (dat1 V c).arrAt_eq_of_cover 4 (Gent (V c main_v6_0) (V c main_v6_1)) (fun t _ => flushed4_eq V c t) cover4

end Cert.KernelIdeal.AttnRegion

end
-- ==== Proof.MeanRead.lean ====
/-
  The program's last two host operations read at the result's one index.

  The column of row entropies (8192 × 1) is summed over both of its axes from the constant zero, and the sum is
  divided by the constant 8192.  A sum into the rank-zero shape is the initial value plus the sum over every index of
  the source; every index of an 8192 × 1 array is `(i, 0)` for one `i`, so that sum is the sum over `i` of the column's
  entries; and the two constants read the extended reals their words denote.
-/
import proofs.«151166_j11244224381685_1_alg».proof.KernelIdeal
import proofs.«151166_j11244224381685_1_alg».proof.Proof.AttnSpec
import Idealize.ShloMosaic.Lib.ValueIdx
import Idealize.ShloMosaic.PureOps.Ideal.Laws

noncomputable section

namespace Cert.KernelIdeal.MeanRead

open Cert.KernelIdeal Cert.Attn Idealize.ShloMosaic Idealize.ShloMosaic.ValueIdx
open Cert.KernelIdeal.Facts₀ Cert.KernelIdeal.Facts

/-- A sum over the indices of an `n × 1` array is the sum over its first coordinate. -/
theorem sum_column {M : Type*} [AddCommMonoid M] {n : ℕ} (f : (⟨2, ![n, 1]⟩ : Shape).Idx → M) :
    ∑ i, f i = ∑ a : Fin n, f (ix2 a (0 : Fin 1)) := by
  rw [sum_idx2]
  exact Finset.sum_congr rfl (fun a _ => Fin.sum_univ_one _)

/-- The mean at its one index: zero plus the sum of the column's 8192 entries, divided by 8192. -/
theorem mean_apply [Cert.KernelIdeal.Facts] (E : (⟨S8192x1, .f32⟩ : BufTy).Contents (Elt Ideal)) (u : S_.Idx) :
    Host.divf (F := Ideal)
        (Host.reduceAdd (F := Ideal) E (constant (F := Ideal) S_ .f32 0x00000000#32) reducesTo_S8192x1_S_d0_1 h_S_)
        (constant (F := Ideal) S_ .f32 0x46000000#32) u
      = Ideal.div (zero + ∑ i : Fin 8192, E (ix2 i (0 : Fin 1))) w8192 := by
  show Ideal.div (Ideal.hostReduceAdd reducesTo_S8192x1_S_d0_1 E (Ideal.ofBits .f32 0x00000000#32) u)
      (Ideal.ofBits .f32 0x46000000#32) = _
  rw [Ideal.hostReduceAdd_total reducesTo_S8192x1_S_d0_1 (fun b => b.elim0), sum_column]
  rfl

end Cert.KernelIdeal.MeanRead

end
-- ==== Proof.KernelValue.lean ====
/-
  The idealized kernel's two results as the specification's functions of the argument arrays.

  The attention output array is what the second kernel's region leaves; the loss is the host's mean of the entropy
  column the same region leaves.  Both regions' arrays are whole-array functions of what each region is entered with,
  and the second is entered with the first's projections: entry `(i, a)` of the output is the kernel's row formula for
  the logits of query `i` and column `a` of the values, and the loss is the sum over the rows of the kernel's row
  entropy, divided by the word for 8192.
-/
import proofs.«151166_j11244224381685_1_alg».proof.Proof.EntryArrays
import proofs.«151166_j11244224381685_1_alg».proof.Proof.AttnRegion
import proofs.«151166_j11244224381685_1_alg».proof.Proof.MeanRead

set_option maxRecDepth 16384

noncomputable section

namespace Cert.KernelIdeal.Results

open Cert.KernelIdeal Cert.KernelIdeal.Gen Cert.Attn
open Idealize.ShloMosaic Idealize.ShloMosaic.TcCoe Idealize.ShloMosaic.Tactic Idealize.ShloMosaic.StableHlo Idealize.ShloMosaic.ValueIdx
open Idealize.SL.Sem

/-! ## The row formulas over arrays whose entries are known -/

/-- A logits row read off two arrays whose entries are `Q` and `K` is the specification's row. -/
theorem rowLogits_of (Qa Ka : S8192x256.Idx → EReal) (Q K : Fin 8192 → Fin 256 → EReal)
    (hQ : ∀ i d, Qa (ix2 i d) = Q i d) (hK : ∀ i d, Ka (ix2 i d) = K i d) (i : Fin 8192) :
    AttnRegion.rowLogits Qa Ka (fun d => ix2 i d) (fun j d => ix2 j d) = logits kScale Q K i := by
  funext j
  unfold AttnRegion.rowLogits logits
  simp only [hQ, hK]

theorem Gout_of (Qa Ka Va : S8192x256.Idx → EReal) (Q K V : Fin 8192 → Fin 256 → EReal)
    (hQ : ∀ i d, Qa (ix2 i d) = Q i d) (hK : ∀ i d, Ka (ix2 i d) = K i d) (hV : ∀ i d, Va (ix2 i d) = V i d)
    (i : Fin 8192) (a : Fin 256) :
    AttnRegion.Gout Qa Ka Va (ix2 i a) = kOut (logits kScale Q K i) (fun j => V j a) := by
  show kOut (AttnRegion.rowLogits Qa Ka (fun d => ix2 i d) (fun j d => ix2 j d)) (fun j => Va (ix2 j a)) = _
  rw [rowLogits_of Qa Ka Q K hQ hK i]
  simp only [hV]

theorem Gent_of (Qa Ka : S8192x256.Idx → EReal) (Q K : Fin 8192 → Fin 256 → EReal)
    (hQ : ∀ i d, Qa (ix2 i d) = Q i d) (hK : ∀ i d, Ka (ix2 i d) = K i d) (i : Fin 8192) (u : Fin 1) :
    AttnRegion.Gent Qa Ka (ix2 i u) = kEnt (logits kScale Q K i) := by
  show kEnt (AttnRegion.rowLogits Qa Ka (fun d => ix2 i d) (fun j d => ix2 j d)) = _
  rw [rowLogits_of Qa Ka Q K hQ hK i]

variable (m : (ℓ : Loc nD τ sig) → Buf (Elt Ideal) ℓ) (ρ : Dev nD → PrngReg)

/-! ## The arrays after the second kernel and the host's mean -/

theorem out_array (c : Dev nD) :
    W4 m ρ c (Proc.devRef .tc main_v7_0) = AttnRegion.Gout (V2 m ρ c main_v6_0) (V2 m ρ c main_v6_1) (V2 m ρ c main_v6_2) := by
  have h : W4 m ρ c (Proc.devRef .tc main_v7_0) = W3 m ρ c (Proc.devRef .tc main_v7_0) := by
    show StableHlo.after hostOps2 (W3 m ρ c) (Proc.devRef .tc main_v7_0) = _
    after_results <;> rfl
  exact h.trans ((W3_arr m ρ c 3).trans (AttnRegion.final3 (V2 m ρ) c))

theorem ent_array (c : Dev nD) :
    W3 m ρ c (Proc.devRef .tc main_v7_1) = AttnRegion.Gent (V2 m ρ c main_v6_0) (V2 m ρ c main_v6_1) :=
  (W3_arr m ρ c 4).trans (AttnRegion.final4 (V2 m ρ) c)

theorem loss_eq (c : Dev nD) :
    W4 m ρ c (Proc.devRef .tc main_v9)
      = Host.divf (F := Ideal) (Host.reduceAdd (F := Ideal) (W3 m ρ c (Proc.devRef .tc main_v7_1))
          (constant (F := Ideal) S_ .f32 0x00000000#32) reducesTo_S8192x1_S_d0_1 h_S_) (constant (F := Ideal) S_ .f32 0x46000000#32) := by
  show StableHlo.after hostOps2 (W3 m ρ c) (Proc.devRef .tc main_v9) = _
  after_results <;> rfl

/-! ## The two results -/

/-- Entry `(i, a)` of the attention output the kernel ends with. -/
theorem out_value (c : Dev nD) (i : Fin 8192) (a : Fin 256) :
    (W4 m ρ c (Proc.devRef .tc main_v7_0) : S8192x256.Idx → EReal) (ix2 i a)
      = kOut (logits kScale
            (proj (m ((c : Thread nD τ).loc main_arg0)) (m ((c : Thread nD τ).loc main_arg1)) (m ((c : Thread nD τ).loc main_arg2)))
            (proj (m ((c : Thread nD τ).loc main_arg0)) (m ((c : Thread nD τ).loc main_arg3)) (m ((c : Thread nD τ).loc main_arg4))) i)
          (fun j => proj (m ((c : Thread nD τ).loc main_arg0)) (m ((c : Thread nD τ).loc main_arg5)) (m ((c : Thread nD τ).loc main_arg6)) j a) := by
  rw [out_array]
  exact Gout_of _ _ _ _ _ _ (Q_apply m ρ c) (K_apply m ρ c) (V_apply m ρ c) i a

/-- The loss the kernel ends with. -/
theorem loss_value (c : Dev nD) (u : S_.Idx) :
    (W4 m ρ c (Proc.devRef .tc main_v9) : S_.Idx → EReal) u
      = Ideal.div (zero + ∑ i : Fin 8192, kEnt (logits kScale
            (proj (m ((c : Thread nD τ).loc main_arg0)) (m ((c : Thread nD τ).loc main_arg1)) (m ((c : Thread nD τ).loc main_arg2)))
            (proj (m ((c : Thread nD τ).loc main_arg0)) (m ((c : Thread nD τ).loc main_arg3)) (m ((c : Thread nD τ).loc main_arg4))) i)) w8192 := by
  rw [loss_eq]
  refine (MeanRead.mean_apply _ u).trans ?_
  rw [ent_array]
  simp only [Gent_of _ _ _ _ (Q_apply m ρ c) (K_apply m ρ c)]

end Cert.KernelIdeal.Results

end
-- ==== Proof.RefRead.lean ====
/-
  The reference program's two results, read at an index as the specification's functions.

  The reference forms the three projections Q, K, V of the input (a contraction with the transposed weight matrix plus
  the bias broadcast over the rows), the logits (Q·Kᵀ) times the scale 1/√256, and then, row by row, a softmax, the
  softmax of that softmax, its entropy, and the product of the first softmax with V.  Each lemma below reads one stage
  of that chain at explicit coordinates and identifies it with the specification's function of the previous stage.
-/
import proofs.«151166_j11244224381685_1_alg».proof.Proof.Gen.ReferenceIdeal.Read
import proofs.«151166_j11244224381685_1_alg».proof.Proof.AttnSpec
import Idealize.ShloMosaic.Lib.ValueIdx
import Idealize.ShloMosaic.PureOps.Ideal.Laws
import Idealize.ShloMosaic.PureOps.Reduce

noncomputable section

namespace Cert.Attn.Ref

open Cert.ReferenceIdeal Cert.ReferenceIdeal.Gen Cert.ReferenceIdeal.Read Cert.Attn Idealize.ShloMosaic Idealize.ShloMosaic.ValueIdx

variable (x0 : (⟨S8192x512, .f32⟩ : BufTy).Contents (Elt Ideal))
  (x1 : (⟨S256x512, .f32⟩ : BufTy).Contents (Elt Ideal)) (x2 : (⟨S256, .f32⟩ : BufTy).Contents (Elt Ideal))
  (x3 : (⟨S256x512, .f32⟩ : BufTy).Contents (Elt Ideal)) (x4 : (⟨S256, .f32⟩ : BufTy).Contents (Elt Ideal))
  (x5 : (⟨S256x512, .f32⟩ : BufTy).Contents (Elt Ideal)) (x6 : (⟨S256, .f32⟩ : BufTy).Contents (Elt Ideal))

/-! ## The three projections

Each is the contraction of the input with the transpose of a weight matrix, plus the bias broadcast over the rows:
entry (i, a) is the sum over k of input (i, k) times weight (a, k), plus bias a. -/

/-- The query projection at (i, a). -/
theorem v4_apply (i : Fin 8192) (a : Fin 256) :
    val_main_v4 (F := Ideal) x0 x1 x2 (ix2 i a) = proj x0 x1 x2 i a := by
  rw [val_main_v4_apply, val_main_v1_apply, val_main_v3_apply, val_main_v2_apply]
  simp only [val_main_v0_apply, Ideal.addf_def]
  have e1 : ∀ k : Fin 512, lidx_main_v1 (ix2 i a) k = ix2 i k := fun k =>
    funext fun d => Fin.ext (by match d with | ⟨0, _⟩ => rfl | ⟨1, _⟩ => rfl)
  have e2 : ∀ k : Fin 512, idx_main_v0 (ridx_main_v1 (ix2 i a) k) = ix2 a k := fun k =>
    funext fun d => Fin.ext (by match d with | ⟨0, _⟩ => rfl | ⟨1, _⟩ => rfl)
  have e3 : idx_main_v2 (idx_main_v3 (ix2 i a)) = ix1 a :=
    funext fun d => Fin.ext (by match d with | ⟨0, _⟩ => rfl)
  simp only [e1, e2, e3]
  rfl

/-- The key projection at (i, a). -/
theorem v9_apply (i : Fin 8192) (a : Fin 256) :
    val_main_v9 (F := Ideal) x0 x3 x4 (ix2 i a) = proj x0 x3 x4 i a := by
  rw [val_main_v9_apply, val_main_v6_apply, val_main_v8_apply, val_main_v7_apply]
  simp only [val_main_v5_apply, Ideal.addf_def]
  have e1 : ∀ k : Fin 512, lidx_main_v6 (ix2 i a) k = ix2 i k := fun k =>
    funext fun d => Fin.ext (by match d with | ⟨0, _⟩ => rfl | ⟨1, _⟩ => rfl)
  have e2 : ∀ k : Fin 512, idx_main_v5 (ridx_main_v6 (ix2 i a) k) = ix2 a k := fun k =>
    funext fun d => Fin.ext (by match d with | ⟨0, _⟩ => rfl | ⟨1, _⟩ => rfl)
  have e3 : idx_main_v7 (idx_main_v8 (ix2 i a)) = ix1 a :=
    funext fun d => Fin.ext (by match d with | ⟨0, _⟩ => rfl)
  simp only [e1, e2, e3]
  rfl

/-- The value projection at (i, a). -/
theorem v14_apply (i : Fin 8192) (a : Fin 256) :
    val_main_v14 (F := Ideal) x0 x5 x6 (ix2 i a) = proj x0 x5 x6 i a := by
  rw [val_main_v14_apply, val_main_v11_apply, val_main_v13_apply, val_main_v12_apply]
  simp only [val_main_v10_apply, Ideal.addf_def]
  have e1 : ∀ k : Fin 512, lidx_main_v11 (ix2 i a) k = ix2 i k := fun k =>
    funext fun d => Fin.ext (by match d with | ⟨0, _⟩ => rfl | ⟨1, _⟩ => rfl)
  have e2 : ∀ k : Fin 512, idx_main_v10 (ridx_main_v11 (ix2 i a) k) = ix2 a k := fun k =>
    funext fun d => Fin.ext (by match d with | ⟨0, _⟩ => rfl | ⟨1, _⟩ => rfl)
  have e3 : idx_main_v12 (idx_main_v13 (ix2 i a)) = ix1 a :=
    funext fun d => Fin.ext (by match d with | ⟨0, _⟩ => rfl)
  simp only [e1, e2, e3]
  rfl

/-! ## The scale and the logits -/

/-- The scale is one over the square root of 256, as the specification spells it. -/
theorem v16_apply (u : S_.Idx) : val_main_v16 (F := Ideal) u = rScale := rfl

/-- The logits at (i, j): query i against key j (the product with the transposed key matrix), times the scale. -/
theorem v20_apply (i j : Fin 8192) :
    val_main_v20 (F := Ideal) x0 x1 x2 x3 x4 (ix2 i j) = logits rScale (proj x0 x1 x2) (proj x0 x3 x4) i j := by
  rw [val_main_v20_apply, val_main_v18_apply, val_main_v19_apply, v16_apply]
  simp only [val_main_v17_apply, Ideal.mulf_def]
  have e1 : ∀ k : Fin 256, lidx_main_v18 (ix2 i j) k = ix2 i k := fun k =>
    funext fun d => Fin.ext (by match d with | ⟨0, _⟩ => rfl | ⟨1, _⟩ => rfl)
  have e2 : ∀ k : Fin 256, idx_main_v17 (ridx_main_v18 (ix2 i j) k) = ix2 j k := fun k =>
    funext fun d => Fin.ext (by match d with | ⟨0, _⟩ => rfl | ⟨1, _⟩ => rfl)
  simp only [e1, e2, v4_apply, v9_apply]
  rfl

/-! ## The first softmax, row by row -/

/-- The row maximum of the logits as the program takes it: the fold of max from the word for -∞ over the row. -/
theorem v21_apply (i : Fin 8192) :
    val_main_v21 (F := Ideal) x0 x1 x2 x3 x4 (ix1 i)
      = (Finset.univ : Finset (Fin 8192)).fold max ninf (logits rScale (proj x0 x1 x2) (proj x0 x3 x4) i) := by
  unfold val_main_v21
  rw [Host.reduce_eq_fold_single FloatOps.maximumf _ _ reducesTo_S8192x8192_S8192_d1 (by decide) h_S_ (ix1 i)]
  have hf : (val_main_v20 (F := Ideal) x0 x1 x2 x3 x4)
        ∘ (Shape.Reduces.lift (s := S8192x8192) (t := S8192) (a := 1) (by decide) (ix1 i))
      = logits rScale (proj x0 x1 x2) (proj x0 x3 x4) i := funext fun k =>
    (congrArg (val_main_v20 (F := Ideal) x0 x1 x2 x3 x4) (show _ = ix2 i k from
      funext fun d => Fin.ext (by match d with | ⟨0, _⟩ => rfl | ⟨1, _⟩ => rfl))).trans (v20_apply x0 x1 x2 x3 x4 i k)
  exact congrArg (fun f => (Finset.univ : Finset (Fin 8192)).fold max ninf f) hf

/-- The reference takes the maximum of that with the word for -∞ once more: the specification's row maximum. -/
theorem v23_apply (i : Fin 8192) :
    val_main_v23 (F := Ideal) x0 x1 x2 x3 x4 (ix1 i) = rMax (logits rScale (proj x0 x1 x2) (proj x0 x3 x4) i) := by
  rw [val_main_v23_apply, val_main_v22_apply, v21_apply]
  rfl

/-- The exponential of the logit minus its row's maximum. -/
theorem v27_apply (i j : Fin 8192) :
    val_main_v27 (F := Ideal) x0 x1 x2 x3 x4 (ix2 i j) = rExp (logits rScale (proj x0 x1 x2) (proj x0 x3 x4) i) j := by
  rw [val_main_v27_apply, val_main_v26_apply, val_main_v25_apply, val_main_v24_apply, v20_apply]
  have e : idx_main_v24 (idx_main_v25 (ix2 i j)) = ix1 i :=
    funext fun d => Fin.ext (by match d with | ⟨0, _⟩ => rfl)
  rw [e, v23_apply]
  rfl

/-- The row's normaliser: the word for zero plus the sum of the exponentials over the row. -/
theorem v28_apply (i : Fin 8192) :
    val_main_v28 (F := Ideal) x0 x1 x2 x3 x4 (ix1 i) = rSum (logits rScale (proj x0 x1 x2) (proj x0 x3 x4) i) := by
  rw [val_main_v28_apply]
  have e : ∀ k : Fin 8192, idx_main_v28 (ix1 i) k = ix2 i k := fun k =>
    funext fun d => Fin.ext (by match d with | ⟨0, _⟩ => rfl | ⟨1, _⟩ => rfl)
  simp only [e, v27_apply]
  rfl

/-- The first softmax: the exponential divided by the row's normaliser. -/
theorem v31_apply (i j : Fin 8192) :
    val_main_v31 (F := Ideal) x0 x1 x2 x3 x4 (ix2 i j) = rScore (logits rScale (proj x0 x1 x2) (proj x0 x3 x4) i) j := by
  rw [val_main_v31_apply, val_main_v30_apply, val_main_v29_apply, v27_apply]
  have e : idx_main_v29 (idx_main_v30 (ix2 i j)) = ix1 i :=
    funext fun d => Fin.ext (by match d with | ⟨0, _⟩ => rfl)
  rw [e, v28_apply]
  rfl

/-! ## The softmax of the softmax, row by row -/

/-- The row maximum of the scores as the program takes it: the fold of max from the word for -∞ over the row. -/
theorem v32_apply (i : Fin 8192) :
    val_main_v32 (F := Ideal) x0 x1 x2 x3 x4 (ix1 i)
      = (Finset.univ : Finset (Fin 8192)).fold max ninf (rScore (logits rScale (proj x0 x1 x2) (proj x0 x3 x4) i)) := by
  unfold val_main_v32
  rw [Host.reduce_eq_fold_single FloatOps.maximumf _ _ reducesTo_S8192x8192_S8192_d1 (by decide) h_S_ (ix1 i)]
  have hf : (val_main_v31 (F := Ideal) x0 x1 x2 x3 x4)
        ∘ (Shape.Reduces.lift (s := S8192x8192) (t := S8192) (a := 1) (by decide) (ix1 i))
      = rScore (logits rScale (proj x0 x1 x2) (proj x0 x3 x4) i) := funext fun k =>
    (congrArg (val_main_v31 (F := Ideal) x0 x1 x2 x3 x4) (show _ = ix2 i k from
      funext fun d => Fin.ext (by match d with | ⟨0, _⟩ => rfl | ⟨1, _⟩ => rfl))).trans (v31_apply x0 x1 x2 x3 x4 i k)
  exact congrArg (fun f => (Finset.univ : Finset (Fin 8192)).fold max ninf f) hf

/-- Again the maximum of that with the word for -∞: the specification's second row maximum. -/
theorem v34_apply (i : Fin 8192) :
    val_main_v34 (F := Ideal) x0 x1 x2 x3 x4 (ix1 i) = rMax2 (logits rScale (proj x0 x1 x2) (proj x0 x3 x4) i) := by
  rw [val_main_v34_apply, val_main_v33_apply, v32_apply]
  rfl

/-- The exponential of the score minus its row's maximum. -/
theorem v38_apply (i j : Fin 8192) :
    val_main_v38 (F := Ideal) x0 x1 x2 x3 x4 (ix2 i j) = rExp2 (logits rScale (proj x0 x1 x2) (proj x0 x3 x4) i) j := by
  rw [val_main_v38_apply, val_main_v37_apply, val_main_v36_apply, val_main_v35_apply, v31_apply]
  have e : idx_main_v35 (idx_main_v36 (ix2 i j)) = ix1 i :=
    funext fun d => Fin.ext (by match d with | ⟨0, _⟩ => rfl)
  rw [e, v34_apply]
  rfl

/-- The second normaliser: the word for zero plus the sum of those exponentials over the row. -/
theorem v39_apply (i : Fin 8192) :
    val_main_v39 (F := Ideal) x0 x1 x2 x3 x4 (ix1 i) = rSum2 (logits rScale (proj x0 x1 x2) (proj x0 x3 x4) i) := by
  rw [val_main_v39_apply]
  have e : ∀ k : Fin 8192, idx_main_v39 (ix1 i) k = ix2 i k := fun k =>
    funext fun d => Fin.ext (by match d with | ⟨0, _⟩ => rfl | ⟨1, _⟩ => rfl)
  simp only [e, v38_apply]
  rfl

/-- The second softmax: the probabilities whose entropy the loss averages. -/
theorem v42_apply (i j : Fin 8192) :
    val_main_v42 (F := Ideal) x0 x1 x2 x3 x4 (ix2 i j) = rProb (logits rScale (proj x0 x1 x2) (proj x0 x3 x4) i) j := by
  rw [val_main_v42_apply, val_main_v41_apply, val_main_v40_apply, v38_apply]
  have e : idx_main_v40 (idx_main_v41 (ix2 i j)) = ix1 i :=
    funext fun d => Fin.ext (by match d with | ⟨0, _⟩ => rfl)
  rw [e, v39_apply]
  rfl

/-! ## The entropy term and the loss -/

/-- One summand of a row's entropy: p · log (p + ε). -/
theorem v46_apply (i j : Fin 8192) :
    val_main_v46 (F := Ideal) x0 x1 x2 x3 x4 (ix2 i j)
      = rProb (logits rScale (proj x0 x1 x2) (proj x0 x3 x4) i) j * Ideal.log (rProb (logits rScale (proj x0 x1 x2) (proj x0 x3 x4) i) j + eps) := by
  rw [val_main_v46_apply, val_main_v45_apply, val_main_v44_apply, val_main_v43_apply, v42_apply]
  rfl

/-- A row's sum of p · log (p + ε), from the word for zero. -/
theorem v47_apply (i : Fin 8192) :
    val_main_v47 (F := Ideal) x0 x1 x2 x3 x4 (ix1 i) = rEnt (logits rScale (proj x0 x1 x2) (proj x0 x3 x4) i) := by
  rw [val_main_v47_apply]
  have e : ∀ k : Fin 8192, idx_main_v47 (ix1 i) k = ix2 i k := fun k =>
    funext fun d => Fin.ext (by match d with | ⟨0, _⟩ => rfl | ⟨1, _⟩ => rfl)
  simp only [e, v46_apply]
  rfl

/-- A rank-1 index set is its one coordinate's range. -/
def idxEquiv1 {n : Nat} : (⟨1, ![n]⟩ : Shape).Idx ≃ Fin n where
  toFun j := j 0
  invFun a := ix1 a
  left_inv j := (eq_ix1 j).symm
  right_inv _ := rfl

/-- The sum of the rows' terms over all rows, from the word for zero. -/
theorem v48_apply (u : S_.Idx) :
    val_main_v48 (F := Ideal) x0 x1 x2 x3 x4 u
      = zero + ∑ i : Fin 8192, rEnt (logits rScale (proj x0 x1 x2) (proj x0 x3 x4) i) := by
  rw [val_main_v48_apply]
  have hs : ∑ j : S8192.Idx, val_main_v47 (F := Ideal) x0 x1 x2 x3 x4 j
      = ∑ i : Fin 8192, rEnt (logits rScale (proj x0 x1 x2) (proj x0 x3 x4) i) := by
    rw [← Equiv.sum_comp (idxEquiv1 (n := 8192)).symm]
    exact Finset.sum_congr rfl fun i _ => v47_apply x0 x1 x2 x3 x4 i
  rw [hs]
  rfl

/-- The loss: minus the mean over the rows (the sum divided by the word for 8192). -/
theorem loss_apply (u : S_.Idx) :
    val_main_v50 (F := Ideal) x0 x1 x2 x3 x4 u
      = -(Ideal.div (zero + ∑ i : Fin 8192, rEnt (logits rScale (proj x0 x1 x2) (proj x0 x3 x4) i)) w8192) := by
  rw [val_main_v50_apply, val_main_v49_apply, v48_apply]
  rfl

/-! ## The output -/

/-- The output at (i, a): the first softmax's row i against column a of the value projection. -/
theorem out_apply (i : Fin 8192) (a : Fin 256) :
    val_main_v51 (F := Ideal) x0 x1 x2 x3 x4 x5 x6 (ix2 i a)
      = rOut (logits rScale (proj x0 x1 x2) (proj x0 x3 x4) i) (fun j => proj x0 x5 x6 j a) := by
  rw [val_main_v51_apply]
  have e1 : ∀ k : Fin 8192, lidx_main_v51 (ix2 i a) k = ix2 i k := fun k =>
    funext fun d => Fin.ext (by match d with | ⟨0, _⟩ => rfl | ⟨1, _⟩ => rfl)
  have e2 : ∀ k : Fin 8192, ridx_main_v51 (ix2 i a) k = ix2 k a := fun k =>
    funext fun d => Fin.ext (by match d with | ⟨0, _⟩ => rfl | ⟨1, _⟩ => rfl)
  simp only [e1, e2, v31_apply, v14_apply]
  rfl

end Cert.Attn.Ref

end
-- ==== Proof.SoftmaxLaws.lean ====
/-
  The two spellings of one attention row agree on rows of real numbers.

  For a row of real logits `l` with at least one entry, write `M = max_j l_j` (attained at some index),
  `e_j = exp (l_j - M)` (each in (0, 1], equal to 1 at the maximiser), `S = Σ_j e_j ≥ 1`, and `q_j = e_j · (1 / S)`.
  Both spellings compute `q` as the first softmax, because division by a nonzero real is multiplication by its
  reciprocal.  The largest `q_j` is `1 / S` (the maximiser's term), which is why the reciprocal of the first
  normaliser may stand for the maximum of the first softmax.  The second softmax `p` is formed from `q` in the same
  way, the weighted sums agree by distributivity, and the entropy sums are one real number `T`, entering as `0 - T` in
  one spelling and as `0 + T` in the other.
-/
import proofs.«151166_j11244224381685_1_alg».proof.Proof.RowSpec

noncomputable section

namespace Cert.Attn

open Idealize.ShloMosaic

/-! ## The words as extended reals -/

/-- The word for -∞ is the bottom element. -/
theorem ninf_eq : ninf = ⊥ := by simp [ninf, Ideal.ofBits, Ideal.ieee]

/-- The word for zero is 0. -/
theorem zero_eq : zero = 0 := by simp [zero, Ideal.ofBits, Ideal.ieee]

/-- The word for one is 1. -/
theorem one_eq : one = 1 := by
  simp [one, Ideal.ofBits, Ideal.ieee, -EReal.coe_mul]; norm_num

/-- `0x43800000` is 256. -/
theorem w256_eq : Ideal.ofBits .f32 0x43800000#32 = ((256 : ℝ) : EReal) := by
  simp [Ideal.ofBits, Ideal.ieee, -EReal.coe_mul]; norm_num

/-- `0x3D800000` is 1/16. -/
theorem w16th_eq : Ideal.ofBits .f32 0x3D800000#32 = ((1 / 16 : ℝ) : EReal) := by
  simp [Ideal.ofBits, Ideal.ieee, -EReal.coe_mul]; norm_num

/-- `0x46000000` is 8192. -/
theorem w8192_eq : Ideal.ofBits .f32 0x46000000#32 = ((8192 : ℝ) : EReal) := by
  simp [Ideal.ofBits, Ideal.ieee, -EReal.coe_mul]; norm_num

/-- The word added under the logarithm is a nonnegative real. -/
theorem eps_eq : ∃ e : ℝ, 0 ≤ e ∧ eps = (e : EReal) := by
  refine ⟨((2 ^ 23 + 407485 : ℕ) : ℝ) * (2 : ℝ) ^ ((107 : ℤ) - 127 - 23), by positivity, ?_⟩
  simp [eps, Ideal.ofBits, Ideal.ieee, -EReal.coe_mul]

/-! ## General facts -/

/-- A finite sum of coerced reals is the coercion of the real sum. -/
theorem coe_sum {ι : Type*} (s : Finset ι) (f : ι → ℝ) :
    ∑ j ∈ s, ((f j : ℝ) : EReal) = ((∑ j ∈ s, f j : ℝ) : EReal) := by
  classical
  induction s using Finset.induction_on with
  | empty => simp
  | insert a s ha ih => rw [Finset.sum_insert ha, Finset.sum_insert ha, ih, EReal.coe_add]

/-- A row of reals with at least one entry has a largest entry. -/
theorem exists_argmax {n : ℕ} (hn : 0 < n) (f : Fin n → ℝ) : ∃ j0, ∀ j, f j ≤ f j0 := by
  haveI : Nonempty (Fin n) := ⟨⟨0, hn⟩⟩
  obtain ⟨j0, -, h⟩ := Finset.exists_max_image Finset.univ f Finset.univ_nonempty
  exact ⟨j0, fun j => h j (Finset.mem_univ j)⟩

/-- The fold of `max` from -∞ over a row of coerced reals is the coercion of its largest entry. -/
theorem fold_max_coe {n : ℕ} (f : Fin n → ℝ) (j0 : Fin n) (h0 : ∀ j, f j ≤ f j0) :
    (Finset.univ : Finset (Fin n)).fold max ⊥ (fun j => ((f j : ℝ) : EReal)) = ((f j0 : ℝ) : EReal) := by
  apply le_antisymm
  · exact (Finset.fold_max_le _).2 ⟨bot_le, fun j _ => EReal.coe_le_coe_iff.2 (h0 j)⟩
  · exact (Finset.le_fold_max _).2 (Or.inr ⟨j0, Finset.mem_univ _, le_rfl⟩)

/-! ## One softmax over the reals

  For a real row `x` and a real shift `m`: the shifted exponentials, their sum, and the normalised weights. -/

variable {n : ℕ}

/-- `exp (x_j - m)`. -/
def sExp (x : Fin n → ℝ) (m : ℝ) (j : Fin n) : ℝ := Real.exp (x j - m)
/-- `Σ_j exp (x_j - m)`. -/
def sSum (x : Fin n → ℝ) (m : ℝ) : ℝ := ∑ j, sExp x m j
/-- `exp (x_j - m) · (1 / Σ_i exp (x_i - m))`. -/
def sProb (x : Fin n → ℝ) (m : ℝ) (j : Fin n) : ℝ := sExp x m j * (1 / sSum x m)

theorem sExp_pos (x : Fin n → ℝ) (m : ℝ) (j : Fin n) : 0 < sExp x m j := Real.exp_pos _

/-- The sum of the exponentials of a row with at least one entry is positive. -/
theorem sSum_pos (hn : 0 < n) (x : Fin n → ℝ) (m : ℝ) : 0 < sSum x m := by
  haveI : Nonempty (Fin n) := ⟨⟨0, hn⟩⟩
  exact Finset.sum_pos (fun j _ => sExp_pos x m j) Finset.univ_nonempty

theorem sProb_pos (hn : 0 < n) (x : Fin n → ℝ) (m : ℝ) (j : Fin n) : 0 < sProb x m j :=
  mul_pos (sExp_pos x m j) (one_div_pos.2 (sSum_pos hn x m))

/-- Shifting by the largest entry: the maximiser's exponential is 1. -/
theorem sExp_argmax (x : Fin n → ℝ) (j0 : Fin n) : sExp x (x j0) j0 = 1 := by
  simp [sExp]

/-- Shifting by the largest entry: every exponential is at most 1. -/
theorem sExp_le_one (x : Fin n → ℝ) (j0 : Fin n) (h0 : ∀ j, x j ≤ x j0) (j : Fin n) : sExp x (x j0) j ≤ 1 := by
  unfold sExp
  rw [← Real.exp_zero]
  exact Real.exp_le_exp.2 (by linarith [h0 j])

/-- The largest normalised weight is the maximiser's, and it is the reciprocal of the normaliser. -/
theorem sProb_argmax (x : Fin n → ℝ) (j0 : Fin n) : sProb x (x j0) j0 = 1 / sSum x (x j0) := by
  rw [sProb, sExp_argmax, one_mul]

theorem sProb_le_argmax (hn : 0 < n) (x : Fin n → ℝ) (j0 : Fin n) (h0 : ∀ j, x j ≤ x j0) (j : Fin n) :
    sProb x (x j0) j ≤ sProb x (x j0) j0 := by
  rw [sProb_argmax]
  unfold sProb
  have hS : 0 ≤ 1 / sSum x (x j0) := (one_div_pos.2 (sSum_pos hn x (x j0))).le
  calc sExp x (x j0) j * (1 / sSum x (x j0)) ≤ 1 * (1 / sSum x (x j0)) :=
        mul_le_mul_of_nonneg_right (sExp_le_one x j0 h0 j) hS
    _ = 1 / sSum x (x j0) := one_mul _

/-! ## The first softmax in both spellings

  Throughout, `j0` is an index at which the row `l` is largest. Both row maxima are `l j0`, both rows of
  exponentials are `sExp l (l j0)`, both normalisers are `sSum l (l j0)`, and both score rows are `sProb l (l j0)`. -/

theorem kMax_coe (l : Fin n → ℝ) (j0 : Fin n) (h0 : ∀ j, l j ≤ l j0) :
    kMax (fun j => ((l j : ℝ) : EReal)) = ((l j0 : ℝ) : EReal) := by
  rw [kMax, ninf_eq]
  exact fold_max_coe l j0 h0

theorem rMax_coe (l : Fin n → ℝ) (j0 : Fin n) (h0 : ∀ j, l j ≤ l j0) :
    rMax (fun j => ((l j : ℝ) : EReal)) = ((l j0 : ℝ) : EReal) := by
  rw [rMax, ninf_eq, fold_max_coe l j0 h0]
  exact max_eq_right bot_le

theorem kExp_coe (l : Fin n → ℝ) (j0 : Fin n) (h0 : ∀ j, l j ≤ l j0) (j : Fin n) :
    kExp (fun j => ((l j : ℝ) : EReal)) j = ((sExp l (l j0) j : ℝ) : EReal) := by
  rw [kExp, kMax_coe l j0 h0, ← EReal.coe_sub, Ideal.exp_coe]
  rfl

theorem rExp_coe (l : Fin n → ℝ) (j0 : Fin n) (h0 : ∀ j, l j ≤ l j0) (j : Fin n) :
    rExp (fun j => ((l j : ℝ) : EReal)) j = ((sExp l (l j0) j : ℝ) : EReal) := by
  rw [rExp, rMax_coe l j0 h0, ← EReal.coe_sub, Ideal.exp_coe]
  rfl

theorem kSum_coe (l : Fin n → ℝ) (j0 : Fin n) (h0 : ∀ j, l j ≤ l j0) :
    kSum (fun j => ((l j : ℝ) : EReal)) = ((sSum l (l j0) : ℝ) : EReal) := by
  simp only [kSum, kExp_coe l j0 h0]
  exact coe_sum _ _

theorem rSum_coe (l : Fin n → ℝ) (j0 : Fin n) (h0 : ∀ j, l j ≤ l j0) :
    rSum (fun j => ((l j : ℝ) : EReal)) = ((sSum l (l j0) : ℝ) : EReal) := by
  simp only [rSum, rExp_coe l j0 h0, zero_eq, zero_add]
  exact coe_sum _ _

/-- The reciprocal `1 / S` of the first normaliser. -/
theorem kInv_coe (hn : 0 < n) (l : Fin n → ℝ) (j0 : Fin n) (h0 : ∀ j, l j ≤ l j0) :
    kInv (fun j => ((l j : ℝ) : EReal)) = ((1 / sSum l (l j0) : ℝ) : EReal) := by
  rw [kInv, kSum_coe l j0 h0, one_eq, Ideal.div_coe (sSum_pos hn l (l j0)).ne', one_mul]

theorem kScore_coe (hn : 0 < n) (l : Fin n → ℝ) (j0 : Fin n) (h0 : ∀ j, l j ≤ l j0) (j : Fin n) :
    kScore (fun j => ((l j : ℝ) : EReal)) j = ((sProb l (l j0) j : ℝ) : EReal) := by
  rw [kScore, kExp_coe l j0 h0, kInv_coe hn l j0 h0, ← EReal.coe_mul]
  rfl

/-- Division by the positive real normaliser is multiplication by its reciprocal. -/
theorem rScore_coe (hn : 0 < n) (l : Fin n → ℝ) (j0 : Fin n) (h0 : ∀ j, l j ≤ l j0) (j : Fin n) :
    rScore (fun j => ((l j : ℝ) : EReal)) j = ((sProb l (l j0) j : ℝ) : EReal) := by
  rw [rScore, rExp_coe l j0 h0, rSum_coe l j0 h0, Ideal.div_coe (sSum_pos hn l (l j0)).ne', ← EReal.coe_mul]
  rfl

/-! ## The second softmax in both spellings

  The largest first-softmax score is the maximiser's, `1 / S`; so the recomputed maximum is the reciprocal that
  the other spelling reuses, and from there the two second softmaxes are `sProb` of the score row shifted by `1 / S`. -/

theorem rMax2_coe (hn : 0 < n) (l : Fin n → ℝ) (j0 : Fin n) (h0 : ∀ j, l j ≤ l j0) :
    rMax2 (fun j => ((l j : ℝ) : EReal)) = ((1 / sSum l (l j0) : ℝ) : EReal) := by
  have hfun : rScore (fun j => ((l j : ℝ) : EReal)) = fun j => ((sProb l (l j0) j : ℝ) : EReal) :=
    funext (rScore_coe hn l j0 h0)
  rw [rMax2, hfun, ninf_eq, fold_max_coe (sProb l (l j0)) j0 (sProb_le_argmax hn l j0 h0), sProb_argmax]
  exact max_eq_right bot_le

theorem kExp2_coe (hn : 0 < n) (l : Fin n → ℝ) (j0 : Fin n) (h0 : ∀ j, l j ≤ l j0) (j : Fin n) :
    kExp2 (fun j => ((l j : ℝ) : EReal)) j
      = ((sExp (sProb l (l j0)) (1 / sSum l (l j0)) j : ℝ) : EReal) := by
  rw [kExp2, kScore_coe hn l j0 h0, kInv_coe hn l j0 h0, ← EReal.coe_sub, Ideal.exp_coe]
  rfl

theorem rExp2_coe (hn : 0 < n) (l : Fin n → ℝ) (j0 : Fin n) (h0 : ∀ j, l j ≤ l j0) (j : Fin n) :
    rExp2 (fun j => ((l j : ℝ) : EReal)) j
      = ((sExp (sProb l (l j0)) (1 / sSum l (l j0)) j : ℝ) : EReal) := by
  rw [rExp2, rScore_coe hn l j0 h0, rMax2_coe hn l j0 h0, ← EReal.coe_sub, Ideal.exp_coe]
  rfl

theorem kSum2_coe (hn : 0 < n) (l : Fin n → ℝ) (j0 : Fin n) (h0 : ∀ j, l j ≤ l j0) :
    kSum2 (fun j => ((l j : ℝ) : EReal))
      = ((sSum (sProb l (l j0)) (1 / sSum l (l j0)) : ℝ) : EReal) := by
  simp only [kSum2, kExp2_coe hn l j0 h0]
  exact coe_sum _ _

theorem rSum2_coe (hn : 0 < n) (l : Fin n → ℝ) (j0 : Fin n) (h0 : ∀ j, l j ≤ l j0) :
    rSum2 (fun j => ((l j : ℝ) : EReal))
      = ((sSum (sProb l (l j0)) (1 / sSum l (l j0)) : ℝ) : EReal) := by
  simp only [rSum2, rExp2_coe hn l j0 h0, zero_eq, zero_add]
  exact coe_sum _ _

theorem kProb_coe (hn : 0 < n) (l : Fin n → ℝ) (j0 : Fin n) (h0 : ∀ j, l j ≤ l j0) (j : Fin n) :
    kProb (fun j => ((l j : ℝ) : EReal)) j
      = ((sProb (sProb l (l j0)) (1 / sSum l (l j0)) j : ℝ) : EReal) := by
  rw [kProb, kExp2_coe hn l j0 h0, kInv2, kSum2_coe hn l j0 h0, one_eq,
    Ideal.div_coe (sSum_pos hn _ _).ne', one_mul, ← EReal.coe_mul]
  rfl

theorem rProb_coe (hn : 0 < n) (l : Fin n → ℝ) (j0 : Fin n) (h0 : ∀ j, l j ≤ l j0) (j : Fin n) :
    rProb (fun j => ((l j : ℝ) : EReal)) j
      = ((sProb (sProb l (l j0)) (1 / sSum l (l j0)) j : ℝ) : EReal) := by
  rw [rProb, rExp2_coe hn l j0 h0, rSum2_coe hn l j0 h0, Ideal.div_coe (sSum_pos hn _ _).ne', ← EReal.coe_mul]
  rfl

/-! ## The output entry -/

/-- `(Σ_j e_j · v_j) · (1 / S) = Σ_j (e_j · (1 / S)) · v_j`, by distributivity over the reals. -/
theorem kOut_eq_rOut {n : ℕ} (hn : 0 < n) (l v : Fin n → ℝ) :
    kOut (fun j => (l j : EReal)) (fun j => (v j : EReal)) = rOut (fun j => (l j : EReal)) (fun j => (v j : EReal)) := by
  obtain ⟨j0, h0⟩ := exists_argmax hn l
  simp only [kOut, rOut, kExp_coe l j0 h0, kInv_coe hn l j0 h0, rScore_coe hn l j0 h0, ← EReal.coe_mul]
  rw [coe_sum, coe_sum, ← EReal.coe_mul, Finset.sum_mul]
  congr 1
  refine Finset.sum_congr rfl (fun j _ => ?_)
  unfold sProb
  ring

/-! ## The entropy sum -/

/-- One term of the entropy sum: for `p > 0` and `e ≥ 0` the logarithm's argument `p + e` is positive, so the
    term is the real `p · log (p + e)`. -/
theorem ent_term (p e : ℝ) (hp : 0 < p) (he : 0 ≤ e) :
    (p : EReal) * Ideal.log ((p : EReal) + (e : EReal)) = ((p * Real.log (p + e) : ℝ) : EReal) := by
  rw [← EReal.coe_add, Ideal.log_coe, if_neg (not_le.2 (add_pos_of_pos_of_nonneg hp he)), ← EReal.coe_mul]

/-- Both spellings' entropy sums are one and the same real number. -/
theorem ent_sum (hn : 0 < n) (l : Fin n → ℝ) (j0 : Fin n) (h0 : ∀ j, l j ≤ l j0) :
    ∃ t : ℝ,
      (∑ j, kProb (fun j => ((l j : ℝ) : EReal)) j * Ideal.log (kProb (fun j => ((l j : ℝ) : EReal)) j + eps))
          = (t : EReal)
      ∧ (∑ j, rProb (fun j => ((l j : ℝ) : EReal)) j * Ideal.log (rProb (fun j => ((l j : ℝ) : EReal)) j + eps))
          = (t : EReal) := by
  obtain ⟨e, he, hE⟩ := eps_eq
  have hp : ∀ j, 0 < sProb (sProb l (l j0)) (1 / sSum l (l j0)) j := fun j => sProb_pos hn _ _ j
  refine ⟨∑ j, sProb (sProb l (l j0)) (1 / sSum l (l j0)) j
      * Real.log (sProb (sProb l (l j0)) (1 / sSum l (l j0)) j + e), ?_, ?_⟩
  · simp only [kProb_coe hn l j0 h0, hE, fun j => ent_term _ e (hp j) he]
    exact coe_sum _ _
  · simp only [rProb_coe hn l j0 h0, hE, fun j => ent_term _ e (hp j) he]
    exact coe_sum _ _

/-- The entropy is `0 - T` in one spelling and `0 + T` in the other, for the same real `T`. -/
theorem kEnt_eq_neg_rEnt {n : ℕ} (hn : 0 < n) (l : Fin n → ℝ) :
    kEnt (fun j => (l j : EReal)) = -(rEnt (fun j => (l j : EReal))) := by
  obtain ⟨j0, h0⟩ := exists_argmax hn l
  obtain ⟨t, hk, hr⟩ := ent_sum hn l j0 h0
  rw [kEnt, rEnt, hk, hr, zero_eq, zero_sub, zero_add]

/-- The entropy sum is a real number: every weight is positive, so no logarithm meets a nonpositive argument. -/
theorem rEnt_real {n : ℕ} (hn : 0 < n) (l : Fin n → ℝ) : ∃ t : ℝ, rEnt (fun j => (l j : EReal)) = (t : EReal) := by
  obtain ⟨j0, h0⟩ := exists_argmax hn l
  obtain ⟨t, -, hr⟩ := ent_sum hn l j0 h0
  exact ⟨t, by rw [rEnt, hr, zero_eq, zero_add]⟩

/-! ## The score scale and the mean -/

/-- `1 / √256 = 1 / 16`. -/
theorem scale_eq : Ideal.div one (Ideal.sqrt (Ideal.ofBits .f32 0x43800000#32)) = Ideal.ofBits .f32 0x3D800000#32 := by
  have h16 : Real.sqrt 256 = 16 := by
    rw [show (256 : ℝ) = 16 ^ 2 by norm_num]
    exact Real.sqrt_sq (by norm_num)
  rw [w256_eq, w16th_eq, Ideal.sqrt_coe, if_neg (by norm_num), h16, one_eq, Ideal.div_coe (by norm_num), one_mul]

/-- The mean of the negated terms is the negated mean: `(Σ -t_i) · (1 / 8192) = -((Σ t_i) · (1 / 8192))`. -/
theorem mean_neg {N : ℕ} (t : Fin N → ℝ) :
    Ideal.div (zero + ∑ i, -((t i : ℝ) : EReal)) (Ideal.ofBits .f32 0x46000000#32)
      = -(Ideal.div (zero + ∑ i, ((t i : ℝ) : EReal)) (Ideal.ofBits .f32 0x46000000#32)) := by
  have h : (8192 : ℝ) ≠ 0 := by norm_num
  simp only [← EReal.coe_neg]
  rw [coe_sum, coe_sum, w8192_eq, zero_eq, zero_add, zero_add, Ideal.div_coe h, Ideal.div_coe h, ← EReal.coe_mul,
    ← EReal.coe_mul, ← EReal.coe_neg, Finset.sum_neg_distrib, neg_mul]

end Cert.Attn

end
-- ==== Proof.Bridge.lean ====
/-
  Joining the two programs' last steps on arrays of real numbers.

  One program scales the logits by the word for 1/16, the other by `1 / √256`; these are one number.  When every
  query, key and value entry is a real number, each row of logits `((Σ_d q_i,d · k_j,d) · (1/16))_j` is a row of
  reals, so the row laws apply: the two output entries agree, and each row's entropy is `-T_i` in one program and
  `T_i` in the other for a real `T_i`; the mean of the `-T_i` is then minus the mean of the `T_i`.
-/
import proofs.«151166_j11244224381685_1_alg».proof.Proof.SoftmaxLaws
import proofs.«151166_j11244224381685_1_alg».proof.Proof.AttnSpec

noncomputable section

namespace Cert.Attn

open Idealize.ShloMosaic

/-- `1 / √256` is the word for 1/16. -/
theorem rScale_eq_kScale : rScale = kScale := by
  rw [rScale, kScale]
  exact scale_eq

/-- A row of logits of real queries and keys at the scale 1/16 is a row of reals: `(Σ_d q_i,d · k_j,d) · (1/16)`. -/
theorem logits_coe (q k : Fin 8192 → Fin 256 → ℝ) (i : Fin 8192) :
    logits kScale (fun i d => ((q i d : ℝ) : EReal)) (fun j d => ((k j d : ℝ) : EReal)) i
      = fun j => (((∑ d, q i d * k j d) * (1 / 16) : ℝ) : EReal) := by
  funext j
  simp only [logits, kScale, w16th_eq, ← EReal.coe_mul]
  rw [coe_sum, ← EReal.coe_mul]

/-- An array all of whose entries are real is the coercion of a real array. -/
theorem exists_real_array {A B : Type*} (X : A → B → EReal) (hX : ∀ i d, ∃ r : ℝ, X i d = ((r : ℝ) : EReal)) :
    ∃ x : A → B → ℝ, X = fun i d => ((x i d : ℝ) : EReal) := by
  choose x hx using hX
  exact ⟨x, funext fun i => funext fun d => hx i d⟩

/-- The output entries agree when queries, keys and values are real. -/
theorem out_bridge (Q K V : Fin 8192 → Fin 256 → EReal)
    (hQ : ∀ i d, ∃ r : ℝ, Q i d = ((r : ℝ) : EReal)) (hK : ∀ i d, ∃ r : ℝ, K i d = ((r : ℝ) : EReal))
    (hV : ∀ i d, ∃ r : ℝ, V i d = ((r : ℝ) : EReal)) (i : Fin 8192) (a : Fin 256) :
    kOut (logits kScale Q K i) (fun j => V j a) = rOut (logits rScale Q K i) (fun j => V j a) := by
  obtain ⟨q, rfl⟩ := exists_real_array Q hQ
  obtain ⟨k, rfl⟩ := exists_real_array K hK
  obtain ⟨v, rfl⟩ := exists_real_array V hV
  rw [rScale_eq_kScale, logits_coe q k i]
  exact kOut_eq_rOut (by norm_num) _ (fun j => v j a)

/-- The mean of one program's row entropies is minus the mean of the other's row sums. -/
theorem loss_bridge (Q K : Fin 8192 → Fin 256 → EReal)
    (hQ : ∀ i d, ∃ r : ℝ, Q i d = ((r : ℝ) : EReal)) (hK : ∀ i d, ∃ r : ℝ, K i d = ((r : ℝ) : EReal)) :
    Ideal.div (zero + ∑ i : Fin 8192, kEnt (logits kScale Q K i)) w8192
      = -(Ideal.div (zero + ∑ i : Fin 8192, rEnt (logits rScale Q K i)) w8192) := by
  obtain ⟨q, rfl⟩ := exists_real_array Q hQ
  obtain ⟨k, rfl⟩ := exists_real_array K hK
  have h8 : 0 < 8192 := by norm_num
  -- each row's sum is a real number
  have hreal : ∀ i : Fin 8192, ∃ t : ℝ,
      rEnt (logits kScale (fun i d => ((q i d : ℝ) : EReal)) (fun j d => ((k j d : ℝ) : EReal)) i) = (t : EReal) := by
    intro i
    rw [logits_coe q k i]
    exact rEnt_real h8 _
  choose t ht using hreal
  -- and the other program's row entropy is its negative
  have hneg : ∀ i : Fin 8192,
      kEnt (logits kScale (fun i d => ((q i d : ℝ) : EReal)) (fun j d => ((k j d : ℝ) : EReal)) i)
        = -((t i : ℝ) : EReal) := by
    intro i
    rw [← ht i, logits_coe q k i]
    exact kEnt_eq_neg_rEnt h8 _
  rw [rScale_eq_kScale]
  simp only [hneg, ht, w8192]
  exact mean_neg t

end Cert.Attn

end
-- ==== Proof.RealRows.lean ====
/-
  Projections and logits of real arrays are real.

  The extended reals add and multiply real numbers as the reals do: the coercion from the reals commutes with a sum of
  two terms, with a product, and hence with any finite sum. So an expression built from real entries by finite sums
  and products — a projected entry (a row of the input against a row of the weights, plus a bias entry), a logit (a
  query row against a key row, times the scale) — is itself a real number. The kernel's scale, the f32 word
  0x3D800000 (sign 0, biased exponent 123, fraction 0), denotes 2^23 · 2^(123 - 127 - 23) = 2^(-4) = 1/16.
-/
import proofs.«151166_j11244224381685_1_alg».proof.Proof.AttnSpec

noncomputable section

namespace Cert.Attn.Real

open Idealize.ShloMosaic Idealize.ShloMosaic.ValueIdx

/-- The coercion from the reals commutes with a finite sum: by induction on the index set, one term at a time. -/
theorem sum_coe {ι : Type*} (s : Finset ι) (f : ι → ℝ) :
    (∑ i ∈ s, ((f i : ℝ) : EReal)) = ((∑ i ∈ s, f i : ℝ) : EReal) := by
  induction s using Finset.cons_induction with
  | empty => simp
  | cons a s ha ih => rw [Finset.sum_cons, Finset.sum_cons, ih, EReal.coe_add]

/-- A projected entry of real arrays is the real number Σ_k x[i,k] · W[a,k] + b[a]. -/
theorem proj_real (x : (⟨2, ![8192, 512]⟩ : Shape).Idx → EReal) (W : (⟨2, ![256, 512]⟩ : Shape).Idx → EReal)
    (b : (⟨1, ![256]⟩ : Shape).Idx → EReal)
    (hx : ∀ i, ∃ r : ℝ, x i = ((r : ℝ) : EReal)) (hW : ∀ i, ∃ r : ℝ, W i = ((r : ℝ) : EReal))
    (hb : ∀ i, ∃ r : ℝ, b i = ((r : ℝ) : EReal))
    (i : Fin 8192) (a : Fin 256) : ∃ r : ℝ, proj x W b i a = ((r : ℝ) : EReal) := by
  choose fx hfx using hx
  choose fW hfW using hW
  choose fb hfb using hb
  refine ⟨(∑ k : Fin 512, fx (ix2 i k) * fW (ix2 a k)) + fb (ix1 a), ?_⟩
  unfold proj
  simp only [hfx, hfW, hfb]
  rw [EReal.coe_add, ← sum_coe]
  simp only [EReal.coe_mul]

/-- The kernel's scale is the real number 1/16. -/
theorem kScale_eq : kScale = (((1 / 16 : ℝ)) : EReal) := by
  simp [kScale, Ideal.ofBits, Ideal.ieee, -EReal.coe_mul]
  norm_num

theorem kScale_real : ∃ r : ℝ, kScale = ((r : ℝ) : EReal) := ⟨1 / 16, kScale_eq⟩

/-- A logit of real rows under a real scale is the real number (Σ_d Q[i,d] · K[j,d]) · s. -/
theorem logits_real (s : EReal) (hs : ∃ r : ℝ, s = ((r : ℝ) : EReal)) (Q K : Fin 8192 → Fin 256 → EReal)
    (hQ : ∀ i d, ∃ r : ℝ, Q i d = ((r : ℝ) : EReal)) (hK : ∀ i d, ∃ r : ℝ, K i d = ((r : ℝ) : EReal))
    (i j : Fin 8192) : ∃ r : ℝ, logits s Q K i j = ((r : ℝ) : EReal) := by
  obtain ⟨sr, rfl⟩ := hs
  choose fQ hfQ using hQ
  choose fK hfK using hK
  refine ⟨(∑ d : Fin 256, fQ i d * fK j d) * sr, ?_⟩
  unfold logits
  simp only [hfQ, hfK]
  rw [EReal.coe_mul, ← sum_coe]
  simp only [EReal.coe_mul]

end Cert.Attn.Real

end
-- ==== Proof.FiniteArgs.lean ====
/-
  The precondition "every entry of every input array is finite", read back at the ideal instance.

  The printed predicate computes, for each of the seven float arrays a, the bit all(|a| < +inf): the absolute value
  of every entry, compared (ordered, less-than) with the f32 word 0x7F800000 broadcast over the array's shape, the
  comparison bits folded by "and" from the constant true; the seven bits are then joined by "and". At the ideal
  instance a float is an extended real, the word 0x7F800000 denotes the top element, and the absolute value of x is
  max x (-x). So the predicate being one says: for every entry x of every array, max x (-x) < top. An extended real
  is bottom, a real number, or top; max x (-x) is top when x is bottom or top; hence every entry is a real number.
-/
import proofs.«151166_j11244224381685_1_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Attn

open Idealize.ShloMosaic

/-- An extended real x with max x (-x) below the top element is a real number: at the bottom element -x is the top,
    at the top element x is. -/
theorem real_of_abs_lt_top (x : EReal) (h : max x (-x) < ⊤) : ∃ r : ℝ, x = ((r : ℝ) : EReal) := by
  induction x using EReal.rec with
  | bot => simp at h
  | coe r => exact ⟨r, rfl⟩
  | top => simp at h

/-- The f32 word 0x7F800000 (sign 0, exponent all ones, fraction 0) denotes the top element. -/
theorem ofBits_inf : Ideal.ofBits .f32 0x7F800000#32 = (⊤ : EReal) := by simp [Ideal.ofBits, Ideal.ieee]

/-- One entry: when the ordered comparison |x| < +inf gives the bit one, x is a real number. -/
theorem real_of_abs_olt_inf (x : Ideal .f32)
    (h : FloatOps.cmpf .olt (FloatOps.hostAbsf x) (FloatOps.ofBits (F := Ideal) .f32 0x7F800000#32) = 1#1) :
    ∃ r : ℝ, x = ((r : ℝ) : EReal) := by
  change Ideal.cmp .olt (max (x : EReal) (-(x : EReal))) (Ideal.ofBits .f32 0x7F800000#32) = 1#1 at h
  rw [ofBits_inf] at h
  unfold Ideal.cmp at h
  by_cases hlt : max (x : EReal) (-(x : EReal)) < ⊤
  · exact real_of_abs_lt_top x hlt
  · simp [hlt] at h

/-- The scalar shape has one index. -/
instance scalarIdx_subsingleton : Subsingleton Cert.Pre_finite_inputs.S_.Idx := ⟨fun a b => funext fun d => d.elim0⟩

/-- One array: when the fold by "and" of the bits |a i| < +inf over all axes, from any initial value, is one, every
    entry of a is a real number. The fold being one makes every bit one, and each bit is the entry's comparison
    with the broadcast word, which at every index is the word itself. -/
theorem real_of_all_finite {s c t u : Shape} [Subsingleton t.Idx] {axes : List (Fin s.rank)}
    {dims : Fin c.rank → Fin s.rank} (hb : c.BroadcastsInDim s dims) (hr : s.ReducesTo axes t) (hu : 0 < u.numel)
    (a : FVec Ideal s .f32) (init : IVec u 1) (j : t.Idx)
    (e : Host.reduce IntOp.andi
          (cmpf .olt (Host.absf a) (broadcastInDim s dims hb (constant c .f32 0x7F800000#32))) init hr hu j = 1#1) :
    ∀ i, ∃ r : ℝ, a i = ((r : ℝ) : EReal) := fun i =>
  real_of_abs_olt_inf (a i) (Host.reduce_andi_all _ init hr hu j e i)

/-- The printed predicate being one on seven arrays says every entry of each of them is a real number. -/
theorem real_of_finite_inputs [hP : Cert.Pre_finite_inputs.Facts]
    (a0 : FVec Ideal Cert.Pre_finite_inputs.S8192x512 .f32) (a1 : FVec Ideal Cert.Pre_finite_inputs.S256x512 .f32)
    (a2 : FVec Ideal Cert.Pre_finite_inputs.S256 .f32) (a3 : FVec Ideal Cert.Pre_finite_inputs.S256x512 .f32)
    (a4 : FVec Ideal Cert.Pre_finite_inputs.S256 .f32) (a5 : FVec Ideal Cert.Pre_finite_inputs.S256x512 .f32)
    (a6 : FVec Ideal Cert.Pre_finite_inputs.S256 .f32)
    (h : Cert.Pre_finite_inputs.fn (F := Ideal) a0 a1 a2 a3 a4 a5 a6 = fun _ => 1#1) :
    (∀ i, ∃ r : ℝ, a0 i = ((r : ℝ) : EReal)) ∧ (∀ i, ∃ r : ℝ, a1 i = ((r : ℝ) : EReal)) ∧ (∀ i, ∃ r : ℝ, a2 i = ((r : ℝ) : EReal))
    ∧ (∀ i, ∃ r : ℝ, a3 i = ((r : ℝ) : EReal)) ∧ (∀ i, ∃ r : ℝ, a4 i = ((r : ℝ) : EReal)) ∧ (∀ i, ∃ r : ℝ, a5 i = ((r : ℝ) : EReal))
    ∧ (∀ i, ∃ r : ℝ, a6 i = ((r : ℝ) : EReal)) := by
  -- the predicate's value at the scalar shape's one index, with the chain of operations in view
  have e := congrFun h ValueIdx.ix0
  dsimp only [Cert.Pre_finite_inputs.fn, Cert.Pre_finite_inputs.fn_part1, andi] at e
  -- an "and" of bits is one exactly when both are: seven bits, one per array
  simp only [IntOp.andi_eq_one] at e
  obtain ⟨⟨⟨⟨⟨⟨e0, e1⟩, e2⟩, e3⟩, e4⟩, e5⟩, e6⟩ := e
  exact ⟨real_of_all_finite _ _ _ a0 _ _ e0, real_of_all_finite _ _ _ a1 _ _ e1, real_of_all_finite _ _ _ a2 _ _ e2,
    real_of_all_finite _ _ _ a3 _ _ e3, real_of_all_finite _ _ _ a4 _ _ e4, real_of_all_finite _ _ _ a5 _ _ e5,
    real_of_all_finite _ _ _ a6 _ _ e6⟩

end Cert.Attn

end
-- ==== Proof.lean ====
/-
  The certificate of a softmax-attention layer with an entropy loss.

  Both programs form `Q = x·Wqᵀ + bq`, `K`, `V`, the logits `(Q·Kᵀ)/16`, the row softmax `s`, the output `s·V`, and the
  mean over the rows of `-Σ_j p_j · log (p_j + ε)` where `p` is the row softmax of `s` again.  The kernel does it in
  two regions (the projections; then attention, 128 query rows at a time against all keys and values) and a host mean;
  it multiplies by reciprocals where the reference divides, spells the scale as the word for 1/16 where the reference
  computes `1/√256`, reuses `1/Σ exp` as the maximum of the first softmax, and negates each row's sum before the mean
  where the reference negates the mean.  Over the extended reals these agree when every quantity is a real number, which
  the precondition (every input entry finite) gives: the projections and logits of real arrays are real.

  The three frames are the generated ones (the reference's is its generated run with the results dropped); the ideal
  pass rewrote nothing, so `preserves` is trivial; `algebraic` puts the kernel's run, read at its two result buffers
  (`KernelRun`, `KernelValue`), beside the reference's generated run read operation by operation (`RefRead`), and
  joins the two spellings by the row laws (`SoftmaxLaws`, `Bridge`).
-/
import proofs.«151166_j11244224381685_1_alg».proof.Defs
import proofs.«151166_j11244224381685_1_alg».proof.Proof.Gen.Kernel
import proofs.«151166_j11244224381685_1_alg».proof.Proof.Gen.Kernel.Skeleton
import proofs.«151166_j11244224381685_1_alg».proof.Proof.Gen.Kernel.Launch
import proofs.«151166_j11244224381685_1_alg».proof.Proof.Gen.Kernel.Points
import proofs.«151166_j11244224381685_1_alg».proof.Proof.Gen.Kernel.Frame
import proofs.«151166_j11244224381685_1_alg».proof.Proof.Gen.KernelIdeal
import proofs.«151166_j11244224381685_1_alg».proof.Proof.Gen.KernelIdeal.Skeleton
import proofs.«151166_j11244224381685_1_alg».proof.Proof.Gen.KernelIdeal.Launch
import proofs.«151166_j11244224381685_1_alg».proof.Proof.Gen.KernelIdeal.Points
import proofs.«151166_j11244224381685_1_alg».proof.Proof.Gen.KernelIdeal.Frame
import proofs.«151166_j11244224381685_1_alg».proof.Proof.Gen.ReferenceIdeal
import proofs.«151166_j11244224381685_1_alg».proof.Proof.Gen.ReferenceIdeal.Run
import proofs.«151166_j11244224381685_1_alg».proof.Proof.Gen.ReferenceIdeal.Read
import proofs.«151166_j11244224381685_1_alg».proof.Proof.Gen.Pre_finite_inputs
import proofs.«151166_j11244224381685_1_alg».proof.Proof.KernelValue
import proofs.«151166_j11244224381685_1_alg».proof.Proof.RefRead
import proofs.«151166_j11244224381685_1_alg».proof.Proof.Bridge
import proofs.«151166_j11244224381685_1_alg».proof.Proof.RealRows
import proofs.«151166_j11244224381685_1_alg».proof.Proof.FiniteArgs
import Idealize.ShloMosaic.Adequacy
import Idealize.ShloMosaic.Init

noncomputable section

namespace Cert.Proof

open Idealize.ShloMosaic Idealize.ShloMosaic.TcCoe Idealize.SL.Sem Idealize.ShloMosaic.ValueIdx Cert.Attn

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote no operation: nothing to preserve. -/
theorem preserves : Cert.preserves_Kernel_KernelIdeal := trivial

/-- From memories agreeing on the arguments both programs end with the same output array and the same loss: the kernel's
    entries are its row formulas of the projections' logits, the reference's are its own, and on real rows the two
    spellings are one function. -/
theorem algebraic : Cert.algebraic_KernelIdeal_ReferenceIdeal := by
  intro m ρ m' ρ' hpre hagree
  refine ⟨fun c => Cert.KernelIdeal.Gen.W4 m ρ c (Proc.devRef .tc Cert.KernelIdeal.main_v7_0),
          fun c => Cert.KernelIdeal.Gen.W4 m ρ c (Proc.devRef .tc Cert.KernelIdeal.main_v9),
          Cert.KernelIdeal.Named.run_named m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6⟩ := hagree c
    obtain ⟨h0, h1, h2, h3, h4, h5, h6⟩ := Cert.Attn.real_of_finite_inputs _ _ _ _ _ _ _ (hpre c)
    funext j
    obtain ⟨i, a, rfl⟩ : ∃ (i : Fin 8192) (a : Fin 256), j = ix2 i a := ⟨j 0, j 1, eq_ix2 j⟩
    rw [Cert.ReferenceIdeal.Read.val_main_v51_eq, Cert.Attn.Ref.out_apply, a0, a1, a2, a3, a4, a5, a6]
    refine Eq.trans ?_ (Cert.KernelIdeal.Results.out_value m ρ c i a).symm
    exact (out_bridge _ _ _ (fun i d => Real.proj_real _ _ _ h0 h1 h2 i d) (fun i d => Real.proj_real _ _ _ h0 h3 h4 i d)
      (fun i d => Real.proj_real _ _ _ h0 h5 h6 i d) i a).symm
  · obtain ⟨a0, a1, a2, a3, a4, a5, a6⟩ := hagree c
    obtain ⟨h0, h1, h2, h3, h4, h5, h6⟩ := Cert.Attn.real_of_finite_inputs _ _ _ _ _ _ _ (hpre c)
    funext u
    rw [Cert.ReferenceIdeal.Read.val_main_v50_eq, Cert.Attn.Ref.loss_apply, a0, a1, a2, a3, a4]
    refine Eq.trans ?_ (Cert.KernelIdeal.Results.loss_value m ρ c u).symm
    exact (loss_bridge _ _ (fun i d => Real.proj_real _ _ _ h0 h1 h2 i d) (fun i d => Real.proj_real _ _ _ h0 h3 h4 i d)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
